-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x128x128 : Shape := ⟨4, ![16, 512, 128, 128]⟩
abbrev S16x19x128x128 : Shape := ⟨4, ![16, 19, 128, 128]⟩
abbrev S_ : Shape := ⟨0, ![]⟩

class Facts : Prop where
  bcast_S_S16x512x128x128 : S_.BroadcastsInDim S16x512x128x128 (![] : Fin 0 → Fin S16x512x128x128.rank)
  reducesTo_S16x512x128x128_S_d0_1_2_3 : S16x512x128x128.ReducesTo [0, 1, 2, 3] S_
  h_S_ : 0 < S_.numel
  bcast_S_S16x19x128x128 : S_.BroadcastsInDim S16x19x128x128 (![] : Fin 0 → Fin S16x19x128x128.rank)
  reducesTo_S16x19x128x128_S_d0_1_2_3 : S16x19x128x128.ReducesTo [0, 1, 2, 3] S_

variable [Facts]

def fn {F : FTy → Type} [FloatOps F] (main_arg0 : FVec F S16x512x128x128 .f32) (main_arg1 : FVec F S16x19x128x128 .f32) : IVec S_ 1 :=
  let main_v0 : FVec F S16x512x128x128 .f32 := Host.absf main_arg0
  let main_cst : FVec F S_ .f32 := constant S_ .f32 0x7F800000#32
  let main_v1 : FVec F S16x512x128x128 .f32 := broadcastInDim S16x512x128x128 ![] bcast_S_S16x512x128x128 main_cst
  let main_v2 : IVec S16x512x128x128 1 := cmpf .olt main_v0 main_v1
  let main_c : IVec S_ 1 := constantI S_ 1 1#1
  let main_v3 : IVec S_ 1 := (fun x v => Host.reduce IntOp.andi x v reducesTo_S16x512x128x128_S_d0_1_2_3 h_S_) main_v2 main_c
  let main_v4 : FVec F S16x19x128x128 .f32 := Host.absf main_arg1
  let main_cst_0 : FVec F S_ .f32 := constant S_ .f32 0x7F800000#32
  let main_v5 : FVec F S16x19x128x128 .f32 := broadcastInDim S16x19x128x128 ![] bcast_S_S16x19x128x128 main_cst_0
  let main_v6 : IVec S16x19x128x128 1 := cmpf .olt main_v4 main_v5
  let main_c_1 : IVec S_ 1 := constantI S_ 1 1#1
  let main_v7 : IVec S_ 1 := (fun x v => Host.reduce IntOp.andi x v reducesTo_S16x19x128x128_S_d0_1_2_3 h_S_) main_v6 main_c_1
  let main_v8 : IVec S_ 1 := andi main_v3 main_v7
  main_v8
-- ==== Kernel.lean ====
abbrev S16x512x128x128 : Shape := ⟨4, ![16, 512, 128, 128]⟩
abbrev S16x19x128x128 : Shape := ⟨4, ![16, 19, 128, 128]⟩
abbrev S16x19x16384 : Shape := ⟨3, ![16, 19, 16384]⟩
abbrev S16x512x16384 : Shape := ⟨3, ![16, 512, 16384]⟩
abbrev S16x19x512 : Shape := ⟨3, ![16, 19, 512]⟩
abbrev S1x19x8192 : Shape := ⟨3, ![1, 19, 8192]⟩
abbrev S1x512x8192 : Shape := ⟨3, ![1, 512, 8192]⟩
abbrev S1x19x512 : Shape := ⟨3, ![1, 19, 512]⟩
abbrev S1x19x1 : Shape := ⟨3, ![1, 19, 1]⟩
abbrev S1x19 : Shape := ⟨2, ![1, 19]⟩
abbrev S16x512x19 : Shape := ⟨3, ![16, 512, 19]⟩

abbrev nBuf : Space → Nat
  | .hbm => 6
  | .vmem => 9
  | .smem => 0
  | _ => 0

abbrev bufTy : (tb : Table) → Fin (tcTables nBuf tb) → BufTy
  | .hbm, ⟨0, _⟩ => ⟨S16x512x128x128, .f32⟩
  | .hbm, ⟨1, _⟩ => ⟨S16x19x128x128, .f32⟩
  | .hbm, ⟨2, _⟩ => ⟨S16x19x16384, .f32⟩
  | .hbm, ⟨3, _⟩ => ⟨S16x512x16384, .f32⟩
  | .hbm, ⟨4, _⟩ => ⟨S16x19x512, .f32⟩
  | .hbm, ⟨5, _⟩ => ⟨S16x512x19, .f32⟩
  | .local _ .vmem, ⟨0, _⟩ => ⟨S1x19x8192, .f32⟩
  | .local _ .vmem, ⟨1, _⟩ => ⟨S1x19x8192, .f32⟩
  | .local _ .vmem, ⟨2, _⟩ => ⟨S1x512x8192, .f32⟩
  | .local _ .vmem, ⟨3, _⟩ => ⟨S1x512x8192, .f32⟩
  | .local _ .vmem, ⟨4, _⟩ => ⟨S1x19x512, .f32⟩
  | .local _ .vmem, ⟨5, _⟩ => ⟨S1x19x512, .f32⟩
  | .local _ .vmem, ⟨6, _⟩ => ⟨S1x19x1, .f32⟩
  | .local _ .vmem, ⟨7, _⟩ => ⟨S1x19x1, .f32⟩
  | .local _ .vmem, ⟨8, _⟩ => ⟨S1x19x512, .f32⟩
  | _, _ => ⟨S16x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v36 : BitVec 1 := Scalar.cmpi .eq arg1 c1_i32
  let v37 : BitVec 32 := Scalar.extui v36
  let c0_i32_29 : BitVec 32 := 0#32
  let v38 : BitVec 1 := Scalar.cmpi .ne v37 c0_i32_29
  v38

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x19x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x19x128x128_S16x19x16384 : S16x19x128x128.ShapeCasts S16x19x16384
  shapeCasts_S16x512x128x128_S16x512x16384 : S16x512x128x128.ShapeCasts S16x512x16384
  inb_S1x19x1_S1x19x1_0_0_0 : ∀ a, (![0, 0, 0] : Fin 3 → Nat) a + S1x19x1.size a ≤ S1x19x1.size a
  h_S1x19x1 : 0 < S1x19x1.numel
  shapeCasts_S1x19x1_S1x19x1 : S1x19x1.ShapeCasts S1x19x1
  inb_S1x19x512_S1x19x512_0_0_0 : ∀ a, (![0, 0, 0] : Fin 3 → Nat) a + S1x19x512.size a ≤ S1x19x512.size a
  h_S1x19x512 : 0 < S1x19x512.numel
  shapeCasts_S1x19x512_S1x19x512 : S1x19x512.ShapeCasts S1x19x512
  inb_S1x19x8192_S1x19x8192_0_0_0 : ∀ a, (![0, 0, 0] : Fin 3 → Nat) a + S1x19x8192.size a ≤ S1x19x8192.size a
  h_S1x19x8192 : 0 < S1x19x8192.numel
  shapeCasts_S1x19x8192_S1x19x8192 : S1x19x8192.ShapeCasts S1x19x8192
  inb_S1x512x8192_S1x512x8192_0_0_0 : ∀ a, (![0, 0, 0] : Fin 3 → Nat) a + S1x512x8192.size a ≤ S1x512x8192.size a
  h_S1x512x8192 : 0 < S1x512x8192.numel
  shapeCasts_S1x512x8192_S1x512x8192 : S1x512x8192.ShapeCasts S1x512x8192
  reduces_S1x19x8192_S1x19 : S1x19x8192.Reduces [2] S1x19
  shapeCasts_S1x19_S1x19x1 : S1x19.ShapeCasts S1x19x1
  broadcasts_S1x19x1_S1x19x8192 : S1x19x1.Broadcasts S1x19x8192
  broadcasts_S1x19x1_S1x19x512 : S1x19x1.Broadcasts S1x19x512
  transposes_S16x19x512_S16x512x19_0_2_1 : S16x19x512.Transposes [0, 2, 1] S16x512x19
  dot_S1x19x8192_S1x512x8192_S1x19x512_2_2_1_1_0_0_wf : DotDims.WF S1x19x8192 S1x512x8192 S1x19x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x8192.size a ≤ S16x19x16384.size a
  hwx0_0 : ∀ i : grid0.Coords, EltTy.bits .f32 = 32 ∨ (Rect.block (s := S16x19x16384) S1x19x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x8192.size a ≤ S16x512x16384.size a
  hwx0_1 : ∀ i : grid0.Coords, EltTy.bits .f32 = 32 ∨ (Rect.block (s := S16x512x16384) S1x512x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x19x512.size a ≤ S16x19x512.size a
  hwx0_2 : ∀ i : grid0.Coords, EltTy.bits .f32 = 32 ∨ (Rect.block (s := S16x19x512) S1x19x512.size (cc0_transform_2 i) (hinb0_2 i)).WholeWords (EltTy.packing .f32)

variable [Facts₀]

def dot_S1x19x8192_S1x512x8192_S1x19x512_2_2_1_1_0_0 : DotDims S1x19x8192 S1x512x8192 S1x19x512 where
  lhsContracting := [2]
  rhsContracting := [2]
  lhsNonContracting := [1]
  rhsNonContracting := [1]
  lhsBatch := [0]
  rhsBatch := [0]
  wf := dot_S1x19x8192_S1x512x8192_S1x19x512_2_2_1_1_0_0_wf

abbrev win0_0 : Pipeline.Window sig grid0 :=
  Pipeline.Window.ofSpec (Memref.whole main_v0) S1x19x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x19x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x512x128x128 : Shape := ⟨4, ![16, 512, 128, 128]⟩
abbrev S16x19x128x128 : Shape := ⟨4, ![16, 19, 128, 128]⟩
abbrev S16x19x16384 : Shape := ⟨3, ![16, 19, 16384]⟩
abbrev S_ : Shape := ⟨0, ![]⟩
abbrev S16x19 : Shape := ⟨2, ![16, 19]⟩
abbrev S16x19x1 : Shape := ⟨3, ![16, 19, 1]⟩
abbrev S16x512x16384 : Shape := ⟨3, ![16, 512, 16384]⟩
abbrev S16x512x19 : Shape := ⟨3, ![16, 512, 19]⟩

abbrev nBuf : Space → Nat
  | .hbm => 22
  | .vmem => 0
  | .smem => 0
  | _ => 0

abbrev bufTy : (tb : Table) → Fin (tcTables nBuf tb) → BufTy
  | .hbm, ⟨0, _⟩ => ⟨S16x512x128x128, .f32⟩
  | .hbm, ⟨1, _⟩ => ⟨S16x19x128x128, .f32⟩
  | .hbm, ⟨2, _⟩ => ⟨S16x19x16384, .f32⟩
  | .hbm, ⟨3, _⟩ => ⟨S_, .f32⟩
  | .hbm, ⟨4, _⟩ => ⟨S16x19x16384, .f32⟩
  | .hbm, ⟨5, _⟩ => ⟨S16x19x16384, .f32⟩
  | .hbm, ⟨6, _⟩ => ⟨S_, .f32⟩
  | .hbm, ⟨7, _⟩ => ⟨S16x19, .f32⟩
  | .hbm, ⟨8, _⟩ => ⟨S_, .f32⟩
  | .hbm, ⟨9, _⟩ => ⟨S16x19, .f32⟩
  | .hbm, ⟨10, _⟩ => ⟨S16x19, .f32⟩
  | .hbm, ⟨11, _⟩ => ⟨S16x19x1, .f32⟩
  | .hbm, ⟨12, _⟩ => ⟨S16x19x16384, .f32⟩
  | .hbm, ⟨13, _⟩ => ⟨S16x19x16384, .f32⟩
  | .hbm, ⟨14, _⟩ => ⟨S16x19x16384, .f32⟩
  | .hbm, ⟨15, _⟩ => ⟨S_, .f32⟩
  | .hbm, ⟨16, _⟩ => ⟨S16x19, .f32⟩
  | .hbm, ⟨17, _⟩ => ⟨S16x19x1, .f32⟩
  | .hbm, ⟨18, _⟩ => ⟨S16x19x16384, .f32⟩
  | .hbm, ⟨19, _⟩ => ⟨S16x19x16384, .f32⟩
  | .hbm, ⟨20, _⟩ => ⟨S16x512x16384, .f32⟩
  | .hbm, ⟨21, _⟩ => ⟨S16x512x19, .f32⟩
  | _, _ => ⟨S16x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  shapeCasts_S16x19x128x128_S16x19x16384 : S16x19x128x128.ShapeCasts S16x19x16384
  bcast_S_S16x19x16384 : S_.BroadcastsInDim S16x19x16384 (![] : Fin 0 → Fin S16x19x16384.rank)
  reducesTo_S16x19x16384_S16x19_d2 : S16x19x16384.ReducesTo [2] S16x19
  h_S_ : 0 < S_.numel
  bcast_S_S16x19 : S_.BroadcastsInDim S16x19 (![] : Fin 0 → Fin S16x19.rank)
  bcast_S16x19_S16x19x1_0_1 : S16x19.BroadcastsInDim S16x19x1 (![0, 1] : Fin 2 → Fin S16x19x1.rank)
  bcast_S16x19x1_S16x19x16384_0_1_2 : S16x19x1.BroadcastsInDim S16x19x16384 (![0, 1, 2] : Fin 3 → Fin S16x19x16384.rank)
  shapeCasts_S16x512x128x128_S16x512x16384 : S16x512x128x128.ShapeCasts S16x512x16384
  dot_S16x512x16384_S16x19x16384_S16x512x19_2_2_1_1_0_0_wf : DotDims.WF S16x512x16384 S16x19x16384 S16x512x19 [2] [2] [1] [1] [0] [0]

variable [Facts₀]

def dot_S16x512x16384_S16x19x16384_S16x512x19_2_2_1_1_0_0 : DotDims S16x512x16384 S16x19x16384 S16x512x19 where
  lhsContracting := [2]
  rhsContracting := [2]
  lhsNonContracting := [1]
  rhsNonContracting := [1]
  lhsBatch := [0]
  rhsBatch := [0]
  wf := dot_S16x512x16384_S16x19x16384_S16x512x19_2_2_1_1_0_0_wf

class Facts : Prop extends Facts₀ where

variable [Facts]
-- ==== Proof.Pieces.lean ====
/-
  What one grid step leaves in the three carried buffers (running maximum, running normaliser, running weighted
  sum) and, at a batch's last step, in the output block — each as a composition of the body's pure payloads of the
  two input blocks and of what the step found in the carried buffers.  At a batch's first step the step first
  overwrites the carried buffers with −∞, 0 and 0 and then reads those values back, so what it leaves is the same
  composition started from these three constants.  Every store and load covers its whole buffer.
-/
import proofs.«153419_j52905407152962_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-buffer access. -/
theorem hz : (![0, 0, 0] : Fin 3 → Nat) = fun _ => 0 := funext fun a => by fin_cases a <;> rfl

/-- First step of a batch: the running maximum ends at the block's row maxima, taken against −∞. -/
theorem first_max (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S1x19x1 .f32) (harg5 : arg5.IsWhole) (arg6 : Memref sig .tc .vmem S1x19x1 .f32) (harg6 : arg6.IsWhole) (arg7 : Memref sig .tc .vmem S1x19x512 .f32) (harg7 : arg7.IsWhole) (hc0 : cond0_0 i) (hc1 : ¬cond0_1 i)
    (x0 : Vec F S1x19x8192 .f32) (x1 : Vec F S1x512x8192 .f32) :
    sout0_A_0 c i arg2 harg2 arg3 harg3 arg4 harg4 arg5 harg5 arg6 harg6 arg7 harg7 hc0 hc1 x0 x1 = k0_pay2 (k0_pay8 x0 (k0_pay4 (F := F))) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x19x1) hz]
  simp only [View.readAt_eq_ld, harg2.read_unread, harg3.read_unread, harg5.read_unread, harg6.read_unread, harg7.read_unread,
    View.ld_unit_zero (S := S1x19x8192) hz, View.ld_unit_zero (S := S1x512x8192) hz, View.ld_unit_zero (S := S1x19x1) hz,
    View.ld_unit_zero (S := S1x19x512) hz, View.readCov_unit_zero (S := S1x19x1) _ hz, View.readCov_unit_zero (S := S1x19x512) _ hz]

/-- First step: the running normaliser, started from 0 at the shift −∞. -/
theorem first_sum (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S1x19x1 .f32) (harg5 : arg5.IsWhole) (arg6 : Memref sig .tc .vmem S1x19x1 .f32) (harg6 : arg6.IsWhole) (arg7 : Memref sig .tc .vmem S1x19x512 .f32) (harg7 : arg7.IsWhole) (hc0 : cond0_0 i) (hc1 : ¬cond0_1 i)
    (x0 : Vec F S1x19x8192 .f32) (x1 : Vec F S1x512x8192 .f32) :
    sout0_A_1 c i arg2 harg2 arg3 harg3 arg4 harg4 arg5 harg5 arg6 harg6 arg7 harg7 hc0 hc1 x0 x1 = k0_pay11 x0 (k0_pay4 (F := F)) (k0_pay4 (F := F)) (k0_pay5 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x19x1) hz]
  simp only [View.readAt_eq_ld, harg2.read_unread, harg3.read_unread, harg5.read_unread, harg6.read_unread, harg7.read_unread,
    View.ld_unit_zero (S := S1x19x8192) hz, View.ld_unit_zero (S := S1x512x8192) hz, View.ld_unit_zero (S := S1x19x1) hz,
    View.ld_unit_zero (S := S1x19x512) hz, View.readCov_unit_zero (S := S1x19x1) _ hz, View.readCov_unit_zero (S := S1x19x512) _ hz]

/-- First step: the running weighted sum, started from 0 at the shift −∞. -/
theorem first_acc (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S1x19x1 .f32) (harg5 : arg5.IsWhole) (arg6 : Memref sig .tc .vmem S1x19x1 .f32) (harg6 : arg6.IsWhole) (arg7 : Memref sig .tc .vmem S1x19x512 .f32) (harg7 : arg7.IsWhole) (hc0 : cond0_0 i) (hc1 : ¬cond0_1 i)
    (x0 : Vec F S1x19x8192 .f32) (x1 : Vec F S1x512x8192 .f32) :
    sout0_A_2 c i arg2 harg2 arg3 harg3 arg4 harg4 arg5 harg5 arg6 harg6 arg7 harg7 hc0 hc1 x0 x1 = k0_pay1 (k0_pay12 x0 x1 (k0_pay4 (F := F)) (k0_pay4 (F := F)) (k0_pay6 (F := F))) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S1x19x512) hz]
  simp only [View.readAt_eq_ld, harg2.read_unread, harg3.read_unread, harg5.read_unread, harg6.read_unread, harg7.read_unread,
    View.ld_unit_zero (S := S1x19x8192) hz, View.ld_unit_zero (S := S1x512x8192) hz, View.ld_unit_zero (S := S1x19x1) hz,
    View.ld_unit_zero (S := S1x19x512) hz, View.readCov_unit_zero (S := S1x19x1) _ hz, View.readCov_unit_zero (S := S1x19x512) _ hz]

/-- A later step: the running maximum over what the step before left. -/
theorem next_max (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S1x19x1 .f32) (harg5 : arg5.IsWhole) (arg6 : Memref sig .tc .vmem S1x19x1 .f32) (harg6 : arg6.IsWhole) (arg7 : Memref sig .tc .vmem S1x19x512 .f32) (harg7 : arg7.IsWhole) (hc0 : ¬cond0_0 i) (hc1 : cond0_1 i)
    (x0 : Vec F S1x19x8192 .f32) (x1 : Vec F S1x512x8192 .f32) (xs0 : Vec F S1x19x1 .f32) (xs1 : Vec F S1x19x1 .f32) (xs2 : Vec F S1x19x512 .f32) :
    sout0_B_0 c i arg2 harg2 arg3 harg3 arg4 harg4 arg5 harg5 arg6 harg6 arg7 harg7 hc0 hc1 x0 x1 xs0 xs1 xs2 = k0_pay2 (k0_pay8 x0 xs0) := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero (S := S1x19x1) hz]
  simp only [View.readAt_eq_ld, harg2.read_unread, harg3.read_unread, harg5.read_unread, harg6.read_unread, harg7.read_unread,
    View.ld_unit_zero (S := S1x19x8192) hz, View.ld_unit_zero (S := S1x512x8192) hz, View.ld_unit_zero (S := S1x19x1) hz,
    View.ld_unit_zero (S := S1x19x512) hz, View.readCov_unit_zero (S := S1x19x1) _ hz, View.readCov_unit_zero (S := S1x19x512) _ hz]

/-- A later step: the normaliser the step before left, rescaled, plus this block's. -/
theorem next_sum (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S1x19x1 .f32) (harg5 : arg5.IsWhole) (arg6 : Memref sig .tc .vmem S1x19x1 .f32) (harg6 : arg6.IsWhole) (arg7 : Memref sig .tc .vmem S1x19x512 .f32) (harg7 : arg7.IsWhole) (hc0 : ¬cond0_0 i) (hc1 : cond0_1 i)
    (x0 : Vec F S1x19x8192 .f32) (x1 : Vec F S1x512x8192 .f32) (xs0 : Vec F S1x19x1 .f32) (xs1 : Vec F S1x19x1 .f32) (xs2 : Vec F S1x19x512 .f32) :
    sout0_B_1 c i arg2 harg2 arg3 harg3 arg4 harg4 arg5 harg5 arg6 harg6 arg7 harg7 hc0 hc1 x0 x1 xs0 xs1 xs2 = k0_pay11 x0 xs0 xs0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero (S := S1x19x1) hz]
  simp only [View.readAt_eq_ld, harg2.read_unread, harg3.read_unread, harg5.read_unread, harg6.read_unread, harg7.read_unread,
    View.ld_unit_zero (S := S1x19x8192) hz, View.ld_unit_zero (S := S1x512x8192) hz, View.ld_unit_zero (S := S1x19x1) hz,
    View.ld_unit_zero (S := S1x19x512) hz, View.readCov_unit_zero (S := S1x19x1) _ hz, View.readCov_unit_zero (S := S1x19x512) _ hz]

/-- A later step: the weighted sum the step before left, rescaled, plus this block's. -/
theorem next_acc (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S1x19x1 .f32) (harg5 : arg5.IsWhole) (arg6 : Memref sig .tc .vmem S1x19x1 .f32) (harg6 : arg6.IsWhole) (arg7 : Memref sig .tc .vmem S1x19x512 .f32) (harg7 : arg7.IsWhole) (hc0 : ¬cond0_0 i) (hc1 : cond0_1 i)
    (x0 : Vec F S1x19x8192 .f32) (x1 : Vec F S1x512x8192 .f32) (xs0 : Vec F S1x19x1 .f32) (xs1 : Vec F S1x19x1 .f32) (xs2 : Vec F S1x19x512 .f32) :
    sout0_B_2 c i arg2 harg2 arg3 harg3 arg4 harg4 arg5 harg5 arg6 harg6 arg7 harg7 hc0 hc1 x0 x1 xs0 xs1 xs2 = k0_pay1 (k0_pay12 x0 x1 xs0 xs0 xs2) := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero (S := S1x19x512) hz]
  simp only [View.readAt_eq_ld, harg2.read_unread, harg3.read_unread, harg5.read_unread, harg6.read_unread, harg7.read_unread,
    View.ld_unit_zero (S := S1x19x8192) hz, View.ld_unit_zero (S := S1x512x8192) hz, View.ld_unit_zero (S := S1x19x1) hz,
    View.ld_unit_zero (S := S1x19x512) hz, View.readCov_unit_zero (S := S1x19x1) _ hz, View.readCov_unit_zero (S := S1x19x512) _ hz]

/-- The last step of a batch stores the quotient of the weighted sum and the normaliser it has just written. -/
theorem last_out (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S1x19x1 .f32) (harg5 : arg5.IsWhole) (arg6 : Memref sig .tc .vmem S1x19x1 .f32) (harg6 : arg6.IsWhole) (arg7 : Memref sig .tc .vmem S1x19x512 .f32) (harg7 : arg7.IsWhole) (hc0 : ¬cond0_0 i) (hc1 : cond0_1 i)
    (x0 : Vec F S1x19x8192 .f32) (x1 : Vec F S1x512x8192 .f32) (xs0 : Vec F S1x19x1 .f32) (xs1 : Vec F S1x19x1 .f32) (xs2 : Vec F S1x19x512 .f32) :
    out0_B_2 c i arg2 harg2 arg3 harg3 arg4 harg4 arg5 harg5 arg6 harg6 arg7 harg7 hc0 hc1 x0 x1 xs0 xs1 xs2 = k0_pay3 (k0_pay1 (k0_pay12 x0 x1 xs0 xs0 xs2)) (k0_pay11 x0 xs0 xs0 xs1) := by
  unfold out0_B_2
  rw [View.read_writes_eq_canon _ _ _ (cover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero (S := S1x19x512) hz]
  simp only [View.readAt_eq_ld, harg2.read_unread, harg3.read_unread, harg5.read_unread, harg6.read_unread, harg7.read_unread,
    View.ld_unit_zero (S := S1x19x8192) hz, View.ld_unit_zero (S := S1x512x8192) hz, View.ld_unit_zero (S := S1x19x1) hz,
    View.ld_unit_zero (S := S1x19x512) hz, View.readCov_unit_zero (S := S1x19x1) _ hz, View.readCov_unit_zero (S := S1x19x512) _ hz]

end Cert.KernelIdeal.Pieces

end
-- ==== Proof.LibOnlineSoftmax.lean ====
/-
  GENERAL LEMMAS — softmax pooling in its running (online) form against its plain two-pass form, on the extended
  reals.  Imports Mathlib and the ideal float instance only.

  Over the reals.  A softmax-weighted average  (∑ₛ f s · e^(p s − M)) / (∑ₛ e^(p s − M))  does not depend on the
  shift M.  The running form keeps, over consecutive blocks of positions, a running shift, a running normaliser and
  a running weighted sum, and rescales the two sums by e^(M₀ − M₁) when the shift moves from M₀ to M₁; since
  e^(M₀ − M₁) · e^(p − M₀) = e^(p − M₁), what it ends with is the same quotient at the last shift, hence at any
  shift (`pool_real`, for two blocks).  The shifts are arbitrary reals: that they are maxima is never used.

  On the extended reals.  `newMax`, `newSum`, `newAcc` are one step of the running form on one row; `onePass` is
  two steps from the state (−∞, 0, 0) followed by the division; `twoPass` is the plain form.  On rows of REAL
  numbers every quantity is a real number — a nonempty row of reals has a real maximum (`rowMax_real`), a step from
  a real state is the real step (`newSum_coe`, `newAcc_coe`; from (−∞, 0, 0): `newSum_first`, `newAcc_first`), the
  normalisers are positive — so the two forms agree (`onePass_eq_twoPass`).  With an infinite entry they need not:
  the rescaling moves a factor across a sum.  The per-step lemmas serve a running form of any number of steps.

  Also here: a finite sum of reals taken in the extended reals is the real sum (`coe_sum`); a maximum folded from
  −∞ over finitely many reals is real as soon as there is one of them (`fold_max_real`).
-/
import Mathlib
import Idealize.ShloMosaic.PureOps.Ideal

noncomputable section

namespace Cert.Pooling

open Idealize.ShloMosaic Finset

/-! ## Over the reals -/

/-- A finite sum of real numbers, taken in the extended reals, is the real sum. -/
theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- A maximum folded over real numbers from a start that is −∞ or real is −∞ or real. -/
theorem fold_max_bot_or_real {ι : Type*} (s : Finset ι) (g : ι → ℝ) (b : EReal) (hb : b = ⊥ ∨ ∃ r : ℝ, b = r) :
    s.fold max b (fun i => ((g i : ℝ) : EReal)) = ⊥ ∨ ∃ r : ℝ, s.fold max b (fun i => ((g i : ℝ) : EReal)) = r := by
  classical
  induction s using Finset.induction_on with
  | empty => simpa using hb
  | insert a s ha ih =>
    rw [Finset.fold_insert ha]
    right
    rcases ih with h | ⟨r, h⟩
    · exact ⟨g a, by rw [h]; exact max_eq_left bot_le⟩
    · exact ⟨max (g a) r, by rw [h]; exact (EReal.coe_strictMono.monotone.map_max).symm⟩

/-- Over at least one real number, the maximum folded from −∞ is a real number. -/
theorem fold_max_real {ι : Type*} (s : Finset ι) (hs : s.Nonempty) (g : ι → ℝ) :
    ∃ r : ℝ, s.fold max (⊥ : EReal) (fun i => ((g i : ℝ) : EReal)) = r := by
  classical
  obtain ⟨a, ha⟩ := hs
  rw [← Finset.insert_erase ha, Finset.fold_insert (Finset.notMem_erase a s)]
  rcases fold_max_bot_or_real (s.erase a) g ⊥ (Or.inl rfl) with h | ⟨r, h⟩
  · exact ⟨g a, by rw [h]; exact max_eq_left bot_le⟩
  · exact ⟨max (g a) r, by rw [h]; exact (EReal.coe_strictMono.monotone.map_max).symm⟩

/-- THE IDENTITY.  Two blocks of positions (ι₀ then ι₁) with scores p and features f.  The one-pass form — the
    first block's sums at shift M₀ rescaled by e^(M₀ − M₁), plus the second block's at shift M₁, numerator over
    denominator — is the two-pass softmax average at any shift M. -/
theorem pool_real {ι₀ ι₁ : Type*} [Fintype ι₀] [Fintype ι₁] [Nonempty ι₀] (p0 f0 : ι₀ → ℝ) (p1 f1 : ι₁ → ℝ)
    (M0 M1 M : ℝ) :
    (Real.exp (M0 - M1) * (∑ s, Real.exp (p0 s - M0) * f0 s) + ∑ s, Real.exp (p1 s - M1) * f1 s)
      / (Real.exp (M0 - M1) * (∑ s, Real.exp (p0 s - M0)) + ∑ s, Real.exp (p1 s - M1))
    = ∑ s, f0 s * (Real.exp (p0 s - M) / (∑ s, Real.exp (p0 s - M) + ∑ s, Real.exp (p1 s - M)))
      + ∑ s, f1 s * (Real.exp (p1 s - M) / (∑ s, Real.exp (p0 s - M) + ∑ s, Real.exp (p1 s - M))) := by
  have h0 : ∀ s, Real.exp (M0 - M1) * Real.exp (p0 s - M0) = Real.exp (M - M1) * Real.exp (p0 s - M) := fun s => by
    rw [← Real.exp_add, ← Real.exp_add]; congr 1; ring
  have h1 : ∀ s, Real.exp (p1 s - M1) = Real.exp (M - M1) * Real.exp (p1 s - M) := fun s => by
    rw [← Real.exp_add]; congr 1; ring
  have hZ : 0 < ∑ s, Real.exp (p0 s - M) + ∑ s, Real.exp (p1 s - M) := by
    have a : 0 < ∑ s, Real.exp (p0 s - M) := Finset.sum_pos (fun s _ => Real.exp_pos _) Finset.univ_nonempty
    have b : 0 ≤ ∑ s, Real.exp (p1 s - M) := Finset.sum_nonneg (fun s _ => (Real.exp_pos _).le)
    linarith
  have hnum : Real.exp (M0 - M1) * (∑ s, Real.exp (p0 s - M0) * f0 s) + ∑ s, Real.exp (p1 s - M1) * f1 s
      = Real.exp (M - M1) * (∑ s, f0 s * Real.exp (p0 s - M) + ∑ s, f1 s * Real.exp (p1 s - M)) := by
    rw [Finset.mul_sum, mul_add, Finset.mul_sum, Finset.mul_sum]
    congr 1
    · refine Finset.sum_congr rfl fun s _ => ?_
      rw [← mul_assoc, h0 s]; ring
    · refine Finset.sum_congr rfl fun s _ => ?_
      rw [h1 s]; ring
  have hden : Real.exp (M0 - M1) * (∑ s, Real.exp (p0 s - M0)) + ∑ s, Real.exp (p1 s - M1)
      = Real.exp (M - M1) * (∑ s, Real.exp (p0 s - M) + ∑ s, Real.exp (p1 s - M)) := by
    rw [Finset.mul_sum, mul_add, Finset.mul_sum, Finset.mul_sum]
    congr 1
    · exact Finset.sum_congr rfl fun s _ => h0 s
    · exact Finset.sum_congr rfl fun s _ => h1 s
  rw [hnum, hden, mul_div_mul_left _ _ (Real.exp_pos _).ne', add_div, Finset.sum_div, Finset.sum_div]
  congr 1 <;> exact Finset.sum_congr rfl fun s _ => (mul_div_assoc _ _ _)

/-! ## The two forms on the extended reals -/

variable {n : ℕ}

/-- A row's maximum, folded from −∞. -/
def rowMax (p : Fin n → EReal) : EReal := (Finset.univ : Finset (Fin n)).fold max ⊥ p

/-- The shift after a step: the larger of the shift before it and the row's maximum. -/
def newMax (m : EReal) (p : Fin n → EReal) : EReal := max m (rowMax p)

/-- The normaliser after a step: the old one rescaled to the new shift, plus the row's weights. -/
def newSum (m l : EReal) (p : Fin n → EReal) : EReal :=
  Ideal.exp (m - newMax m p) * l + ∑ s, Ideal.exp (p s - newMax m p)

/-- The weighted sum after a step: the old one rescaled to the new shift, plus the row's weighted features. -/
def newAcc (m a : EReal) (p f : Fin n → EReal) : EReal :=
  Ideal.exp (m - newMax m p) * a + ∑ s, Ideal.exp (p s - newMax m p) * f s

/-- The running form over two half rows, from the state (−∞, 0, 0). -/
def onePass (p0 f0 p1 f1 : Fin n → EReal) : EReal :=
  Ideal.div (newAcc (newMax ⊥ p0) (newAcc ⊥ 0 p0 f0) p1 f1) (newSum (newMax ⊥ p0) (newSum ⊥ 0 p0) p1)

/-- The plain form over one row. -/
def twoPass {N : ℕ} (p f : Fin N → EReal) : EReal :=
  ∑ s, f s * Ideal.div (Ideal.exp (p s - max ⊥ (rowMax p))) (∑ s', Ideal.exp (p s' - max ⊥ (rowMax p)))

/-! ## On real rows everything is real -/

theorem exp_sub_coe (x M : ℝ) : Ideal.exp ((x : EReal) - (M : EReal)) = ((Real.exp (x - M) : ℝ) : EReal) := by
  rw [← EReal.coe_sub]; rfl

theorem div_coe_coe (a : ℝ) {l : ℝ} (hl : l ≠ 0) : Ideal.div (a : EReal) (l : EReal) = ((a / l : ℝ) : EReal) := by
  rw [Ideal.div_coe hl, ← EReal.coe_mul, mul_one_div]

/-- A nonempty row of reals has a real maximum. -/
theorem rowMax_real (hn : 0 < n) (p : Fin n → EReal) (pr : Fin n → ℝ) (hp : ∀ s, p s = pr s) :
    ∃ M : ℝ, rowMax p = M := by
  obtain rfl : p = fun s => ((pr s : ℝ) : EReal) := funext hp
  exact fold_max_real Finset.univ ⟨⟨0, hn⟩, Finset.mem_univ _⟩ pr

theorem sum_exp_coe (p : Fin n → EReal) (pr : Fin n → ℝ) (hp : ∀ s, p s = pr s) (M : ℝ) :
    ∑ s, Ideal.exp (p s - (M : EReal)) = ((∑ s, Real.exp (pr s - M) : ℝ) : EReal) := by
  rw [← coe_sum]
  exact Finset.sum_congr rfl fun s _ => by rw [hp s, exp_sub_coe]

theorem sum_exp_mul_coe (p f : Fin n → EReal) (pr fr : Fin n → ℝ) (hp : ∀ s, p s = pr s) (hf : ∀ s, f s = fr s)
    (M : ℝ) :
    ∑ s, Ideal.exp (p s - (M : EReal)) * f s = ((∑ s, Real.exp (pr s - M) * fr s : ℝ) : EReal) := by
  rw [← coe_sum]
  exact Finset.sum_congr rfl fun s _ => by rw [hp s, hf s, exp_sub_coe, EReal.coe_mul]

/-- The first step, from (−∞, 0, 0): the rescaled old state contributes 0 whatever the factor. -/
theorem newSum_first (p : Fin n → EReal) (pr : Fin n → ℝ) (hp : ∀ s, p s = pr s) {M : ℝ} (hM : rowMax p = M) :
    newSum ⊥ 0 p = ((∑ s, Real.exp (pr s - M) : ℝ) : EReal) := by
  unfold newSum newMax
  rw [max_eq_right (bot_le : (⊥ : EReal) ≤ rowMax p), hM, mul_zero, zero_add]
  exact sum_exp_coe p pr hp M

theorem newAcc_first (p f : Fin n → EReal) (pr fr : Fin n → ℝ) (hp : ∀ s, p s = pr s) (hf : ∀ s, f s = fr s)
    {M : ℝ} (hM : rowMax p = M) :
    newAcc ⊥ 0 p f = ((∑ s, Real.exp (pr s - M) * fr s : ℝ) : EReal) := by
  unfold newAcc newMax
  rw [max_eq_right (bot_le : (⊥ : EReal) ≤ rowMax p), hM, mul_zero, zero_add]
  exact sum_exp_mul_coe p f pr fr hp hf M

/-- A later step, from a real state. -/
theorem newSum_coe (m l : ℝ) (p : Fin n → EReal) (pr : Fin n → ℝ) (hp : ∀ s, p s = pr s) {M : ℝ}
    (hM : newMax (m : EReal) p = M) :
    newSum (m : EReal) (l : EReal) p = ((Real.exp (m - M) * l + ∑ s, Real.exp (pr s - M) : ℝ) : EReal) := by
  unfold newSum
  rw [hM, exp_sub_coe, ← EReal.coe_mul, sum_exp_coe p pr hp M, ← EReal.coe_add]

theorem newAcc_coe (m a : ℝ) (p f : Fin n → EReal) (pr fr : Fin n → ℝ) (hp : ∀ s, p s = pr s)
    (hf : ∀ s, f s = fr s) {M : ℝ} (hM : newMax (m : EReal) p = M) :
    newAcc (m : EReal) (a : EReal) p f = ((Real.exp (m - M) * a + ∑ s, Real.exp (pr s - M) * fr s : ℝ) : EReal) := by
  unfold newAcc
  rw [hM, exp_sub_coe, ← EReal.coe_mul, sum_exp_mul_coe p f pr fr hp hf M, ← EReal.coe_add]

/-- The running form on real half rows is the real running quotient, at two real shifts. -/
theorem onePass_coe (hn : 0 < n) (p0 f0 p1 f1 : Fin n → EReal) (pr0 fr0 pr1 fr1 : Fin n → ℝ)
    (hp0 : ∀ s, p0 s = pr0 s) (hf0 : ∀ s, f0 s = fr0 s) (hp1 : ∀ s, p1 s = pr1 s) (hf1 : ∀ s, f1 s = fr1 s) :
    ∃ M0 M1 : ℝ, onePass p0 f0 p1 f1
      = (((Real.exp (M0 - M1) * (∑ s, Real.exp (pr0 s - M0) * fr0 s) + ∑ s, Real.exp (pr1 s - M1) * fr1 s)
          / (Real.exp (M0 - M1) * (∑ s, Real.exp (pr0 s - M0)) + ∑ s, Real.exp (pr1 s - M1)) : ℝ) : EReal) := by
  obtain ⟨M0, hM0⟩ := rowMax_real hn p0 pr0 hp0
  obtain ⟨R1, hR1⟩ := rowMax_real hn p1 pr1 hp1
  have hm0 : newMax ⊥ p0 = (M0 : EReal) := by
    unfold newMax; rw [max_eq_right (bot_le : (⊥ : EReal) ≤ rowMax p0), hM0]
  have hm1 : newMax (M0 : EReal) p1 = ((max M0 R1 : ℝ) : EReal) := by
    unfold newMax; rw [hR1]; exact (EReal.coe_strictMono.monotone.map_max).symm
  refine ⟨M0, max M0 R1, ?_⟩
  have hL0 : 0 < ∑ s, Real.exp (pr0 s - M0) :=
    Finset.sum_pos (fun s _ => Real.exp_pos _) ⟨⟨0, hn⟩, Finset.mem_univ _⟩
  have hS1 : 0 ≤ ∑ s, Real.exp (pr1 s - max M0 R1) := Finset.sum_nonneg fun s _ => (Real.exp_pos _).le
  have hpos : 0 < Real.exp (M0 - max M0 R1) * (∑ s, Real.exp (pr0 s - M0)) + ∑ s, Real.exp (pr1 s - max M0 R1) := by
    have := mul_pos (Real.exp_pos (M0 - max M0 R1)) hL0
    linarith
  unfold onePass
  rw [hm0, newSum_first p0 pr0 hp0 hM0, newAcc_first p0 f0 pr0 fr0 hp0 hf0 hM0,
    newSum_coe M0 _ p1 pr1 hp1 hm1, newAcc_coe M0 _ p1 f1 pr1 fr1 hp1 hf1 hm1, div_coe_coe _ hpos.ne']

/-- The plain form on a real row is the real softmax average, at a real shift. -/
theorem twoPass_coe {N : ℕ} (hN : 0 < N) (p f : Fin N → EReal) (pr fr : Fin N → ℝ) (hp : ∀ s, p s = pr s)
    (hf : ∀ s, f s = fr s) :
    ∃ M : ℝ, twoPass p f = ((∑ s, fr s * (Real.exp (pr s - M) / ∑ s', Real.exp (pr s' - M)) : ℝ) : EReal) := by
  obtain ⟨M, hM⟩ := rowMax_real hN p pr hp
  refine ⟨M, ?_⟩
  have hZ : 0 < ∑ s', Real.exp (pr s' - M) :=
    Finset.sum_pos (fun s _ => Real.exp_pos _) ⟨⟨0, hN⟩, Finset.mem_univ _⟩
  unfold twoPass
  rw [← coe_sum, max_eq_right (bot_le : (⊥ : EReal) ≤ rowMax p), hM, sum_exp_coe p pr hp M]
  exact Finset.sum_congr rfl fun s _ => by rw [hp s, hf s, exp_sub_coe, div_coe_coe _ hZ.ne', EReal.coe_mul]

/-- THE LAW.  On a row of real scores and real features cut into two halves, the running form over the halves is
    the plain form over the row. -/
theorem onePass_eq_twoPass (hn : 0 < n) (p f : Fin (n + n) → EReal) (hp : ∀ s, ∃ r : ℝ, p s = r)
    (hf : ∀ s, ∃ r : ℝ, f s = r) :
    onePass (fun s => p (Fin.castAdd n s)) (fun s => f (Fin.castAdd n s))
        (fun s => p (Fin.natAdd n s)) (fun s => f (Fin.natAdd n s))
      = twoPass p f := by
  choose pr hpr using hp
  choose fr hfr using hf
  haveI : Nonempty (Fin n) := ⟨⟨0, hn⟩⟩
  obtain ⟨M0, M1, h1⟩ := onePass_coe hn (fun s => p (Fin.castAdd n s)) (fun s => f (Fin.castAdd n s))
    (fun s => p (Fin.natAdd n s)) (fun s => f (Fin.natAdd n s))
    (fun s => pr (Fin.castAdd n s)) (fun s => fr (Fin.castAdd n s))
    (fun s => pr (Fin.natAdd n s)) (fun s => fr (Fin.natAdd n s))
    (fun s => hpr _) (fun s => hfr _) (fun s => hpr _) (fun s => hfr _)
  obtain ⟨M, h2⟩ := twoPass_coe (by omega) p f pr fr hpr hfr
  rw [h1, h2]
  congr 1
  rw [pool_real (fun s => pr (Fin.castAdd n s)) (fun s => fr (Fin.castAdd n s))
    (fun s => pr (Fin.natAdd n s)) (fun s => fr (Fin.natAdd n s)) M0 M1 M]
  simp only [Fin.sum_univ_add]

end Cert.Pooling

end
-- ==== Proof.Payload.lean ====
/-
  The body's arithmetic read at an index, on the extended reals.

  A block of scores is [1, 19, 8192] (row k, position s), a block of features [1, 512, 8192] (channel c, position
  s), the running maximum and normaliser [1, 19, 1] (row k) and the running weighted sum [1, 19, 512] (row k,
  channel c).  Row by row the body's payloads are the steps of the running form of softmax pooling
  (`Cert.Pooling.newMax`, `newSum`, `newAcc`): the lane maximum and the lane sum run over the 8192 positions of row
  k, the keepdims casts and broadcasts carry a row's value along, and the matrix product contracts the positions
  of row k of the weights with those of channel c of the features.
-/
import proofs.«153419_j52905407152962_2_alg».proof.Proof.Gen.KernelIdeal.Skeleton
import proofs.«153419_j52905407152962_2_alg».proof.Proof.LibOnlineSoftmax
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.Pooling

/-! ## The three constants -/

/-- The pattern of −∞ denotes the bottom of the extended reals. -/
theorem neg_inf : Ideal.ofBits .f32 0xFF800000#32 = (⊥ : EReal) := by simp [Ideal.ofBits, Ideal.ieee]

theorem pay4_apply (i : S1x19x1.Idx) : k0_pay4 (F := Ideal) i = (⊥ : EReal) := by
  unfold k0_pay4; rw [shapeCast_self]; exact neg_inf

theorem pay5_apply (i : S1x19x1.Idx) : k0_pay5 (F := Ideal) i = (0 : EReal) := by
  unfold k0_pay5; rw [shapeCast_self]; exact Ideal.ofBits_zero_f32

theorem pay6_apply (i : S1x19x512.Idx) : k0_pay6 (F := Ideal) i = (0 : EReal) := by
  unfold k0_pay6; rw [shapeCast_self]; exact Ideal.ofBits_zero_f32

/-! ## The layout operations and the reductions, at the literal shapes -/

/-- Row k of a [1, 19] vector kept as [1, 19, 1]. -/
theorem keepdims_apply {α : Type} (v : S1x19.Idx → α) (h : S1x19.ShapeCasts S1x19x1) (k : Fin 19) :
    shapeCast S1x19x1 v h (ix3 (0 : Fin 1) k (0 : Fin 1)) = v (ix2 (0 : Fin 1) k) :=
  shapeCast_apply v h _ _ (by
    rw [Shape.rowMajor_val_two, Shape.rowMajor_val_three]
    show 0 * 19 + k.val = (0 * 19 + k.val) * 1 + 0
    omega)

/-- A row's value carried along its 8192 positions. -/
theorem along_positions {α : Type} (v : S1x19x1.Idx → α) (h : S1x19x1.Broadcasts S1x19x8192) (k : Fin 19) (s : Fin 8192) :
    broadcastTo S1x19x8192 v h (ix3 (0 : Fin 1) k s) = v (ix3 (0 : Fin 1) k (0 : Fin 1)) :=
  broadcastTo_apply v h _ _ fun a => match a with
    | ⟨0, _⟩ => by show (0 : ℕ) = if (1 : ℕ) = 1 then 0 else _; rw [if_pos rfl]
    | ⟨1, _⟩ => by show k.val = if (19 : ℕ) = 1 then 0 else k.val; rw [if_neg (by decide)]
    | ⟨2, _⟩ => by show (0 : ℕ) = if (1 : ℕ) = 1 then 0 else _; rw [if_pos rfl]

/-- A row's value carried along the 512 channels. -/
theorem along_channels {α : Type} (v : S1x19x1.Idx → α) (h : S1x19x1.Broadcasts S1x19x512) (k : Fin 19) (c : Fin 512) :
    broadcastTo S1x19x512 v h (ix3 (0 : Fin 1) k c) = v (ix3 (0 : Fin 1) k (0 : Fin 1)) :=
  broadcastTo_apply v h _ _ fun a => match a with
    | ⟨0, _⟩ => by show (0 : ℕ) = if (1 : ℕ) = 1 then 0 else _; rw [if_pos rfl]
    | ⟨1, _⟩ => by show k.val = if (19 : ℕ) = 1 then 0 else k.val; rw [if_neg (by decide)]
    | ⟨2, _⟩ => by show (0 : ℕ) = if (1 : ℕ) = 1 then 0 else _; rw [if_pos rfl]

/-- Row k with position s put back is (0, k, s). -/
theorem lift_row (h : S1x19x8192.Reduces [2] S1x19) (k : Fin 19) (s : Fin (S1x19x8192.size 2)) :
    h.lift (ix2 (0 : Fin 1) k) s = ix3 (0 : Fin 1) k (⟨s.val, s.isLt⟩ : Fin 8192) := by
  funext c; apply Fin.ext; fin_cases c <;> rfl

/-- The lane maximum of row k is the row's maximum folded from −∞. -/
theorem max_row (x : FVec Ideal S1x19x8192 .f32) (h : S1x19x8192.Reduces [2] S1x19) (hφ : FKind.Formats .f32)
    (hacc : (0xFF800000#32 : BitVec 32) = FKind.maximumf.neutral .f32 hφ) (k : Fin 19) :
    multiReduction .maximumf [2] S1x19 x 0xFF800000#32 h hφ hacc (ix2 (0 : Fin 1) k)
      = rowMax (fun s : Fin 8192 => x (ix3 (0 : Fin 1) k s)) := by
  refine (Ideal.multiReduction_maximumf_single x 0xFF800000#32 h hφ hacc (ix2 (0 : Fin 1) k)).trans ?_
  show (Finset.univ : Finset (Fin 8192)).fold max (Ideal.ofBits .f32 0xFF800000#32)
      (fun s => x (h.lift (ix2 (0 : Fin 1) k) s))
    = (Finset.univ : Finset (Fin 8192)).fold max ⊥ (fun s : Fin 8192 => x (ix3 (0 : Fin 1) k s))
  rw [neg_inf]
  exact Finset.fold_congr fun s _ => congrArg x (lift_row h k s)

/-- The lane sum of row k is the sum over its positions. -/
theorem sum_row (x : FVec Ideal S1x19x8192 .f32) (h : S1x19x8192.Reduces [2] S1x19) (hφ : FKind.Formats .f32)
    (hacc : (0x00000000#32 : BitVec 32) = FKind.add.neutral .f32 hφ) (k : Fin 19) :
    multiReduction .add [2] S1x19 x 0x00000000#32 h hφ hacc (ix2 (0 : Fin 1) k)
      = ∑ s : Fin 8192, x (ix3 (0 : Fin 1) k s) := by
  refine (Ideal.multiReduction_add_single x 0x00000000#32 h hφ hacc (ix2 (0 : Fin 1) k)).trans ?_
  exact Finset.sum_congr rfl fun s _ => congrArg x (lift_row h k s)

/-! ## The matrix product: row k of the weights against channel c of the features -/

theorem lhs_0 (i : S1x19x512.Idx) (q : dot_S1x19x8192_S1x512x8192_S1x19x512_2_2_1_1_0_0.contr.Idx) : (dot_S1x19x8192_S1x512x8192_S1x19x512_2_2_1_1_0_0.lhsIdx i q 0).val = (i 0).val := by
  unfold DotDims.lhsIdx
  rw [dif_pos (show (0 : Fin S1x19x8192.rank) ∈ dot_S1x19x8192_S1x512x8192_S1x19x512_2_2_1_1_0_0.lhsBatch by decide)]
  rfl
theorem lhs_1 (i : S1x19x512.Idx) (q : dot_S1x19x8192_S1x512x8192_S1x19x512_2_2_1_1_0_0.contr.Idx) : (dot_S1x19x8192_S1x512x8192_S1x19x512_2_2_1_1_0_0.lhsIdx i q 1).val = (i 1).val := by
  unfold DotDims.lhsIdx
  rw [dif_neg (show ¬(1 : Fin S1x19x8192.rank) ∈ dot_S1x19x8192_S1x512x8192_S1x19x512_2_2_1_1_0_0.lhsBatch by decide), dif_pos (show (1 : Fin S1x19x8192.rank) ∈ dot_S1x19x8192_S1x512x8192_S1x19x512_2_2_1_1_0_0.lhsNonContracting by decide)]
  rfl
theorem lhs_2 (i : S1x19x512.Idx) (q : dot_S1x19x8192_S1x512x8192_S1x19x512_2_2_1_1_0_0.contr.Idx) : (dot_S1x19x8192_S1x512x8192_S1x19x512_2_2_1_1_0_0.lhsIdx i q 2).val = (q ⟨0, by decide⟩).val :=
  dot_S1x19x8192_S1x512x8192_S1x19x512_2_2_1_1_0_0.lhsIdx_val_of_single rfl i q
theorem rhs_0 (i : S1x19x512.Idx) (q : dot_S1x19x8192_S1x512x8192_S1x19x512_2_2_1_1_0_0.contr.Idx) : (dot_S1x19x8192_S1x512x8192_S1x19x512_2_2_1_1_0_0.rhsIdx i q 0).val = (i 0).val := by
  unfold DotDims.rhsIdx
  rw [dif_pos (show (0 : Fin S1x512x8192.rank) ∈ dot_S1x19x8192_S1x512x8192_S1x19x512_2_2_1_1_0_0.rhsBatch by decide)]
  rfl
theorem rhs_1 (i : S1x19x512.Idx) (q : dot_S1x19x8192_S1x512x8192_S1x19x512_2_2_1_1_0_0.contr.Idx) : (dot_S1x19x8192_S1x512x8192_S1x19x512_2_2_1_1_0_0.rhsIdx i q 1).val = (i 2).val := by
  unfold DotDims.rhsIdx
  rw [dif_neg (show ¬(1 : Fin S1x512x8192.rank) ∈ dot_S1x19x8192_S1x512x8192_S1x19x512_2_2_1_1_0_0.rhsBatch by decide), dif_pos (show (1 : Fin S1x512x8192.rank) ∈ dot_S1x19x8192_S1x512x8192_S1x19x512_2_2_1_1_0_0.rhsNonContracting by decide)]
  rfl
theorem rhs_2 (i : S1x19x512.Idx) (q : dot_S1x19x8192_S1x512x8192_S1x19x512_2_2_1_1_0_0.contr.Idx) : (dot_S1x19x8192_S1x512x8192_S1x19x512_2_2_1_1_0_0.rhsIdx i q 2).val = (q ⟨0, by decide⟩).val :=
  dot_S1x19x8192_S1x512x8192_S1x19x512_2_2_1_1_0_0.rhsIdx_val_of_single rfl i q

/-- Into the zero accumulator the product at (row k, channel c) is the sum over the positions. -/
theorem dot_apply (l : FVec Ideal S1x19x8192 .f32) (r : FVec Ideal S1x512x8192 .f32) (k : Fin 19) (c : Fin 512) :
    matmul dot_S1x19x8192_S1x512x8192_S1x19x512_2_2_1_1_0_0 none l r (constant (F := Ideal) S1x19x512 .f32 0x00000000#32) (ix3 (0 : Fin 1) k c)
      = ∑ s : Fin 8192, l (ix3 (0 : Fin 1) k s) * r (ix3 (0 : Fin 1) c s) := by
  refine (Ideal.matmul_constant_zero_apply dot_S1x19x8192_S1x512x8192_S1x19x512_2_2_1_1_0_0 none l r (ix3 (0 : Fin 1) k c)).trans ?_
  rw [← Equiv.sum_comp (ValueIdx.contrEquiv1 dot_S1x19x8192_S1x512x8192_S1x19x512_2_2_1_1_0_0 8192 rfl rfl).symm]
  refine Finset.sum_congr rfl fun s _ => ?_
  have hk := ValueIdx.contrEquiv1_symm_val dot_S1x19x8192_S1x512x8192_S1x19x512_2_2_1_1_0_0 8192 rfl rfl s
  have el : dot_S1x19x8192_S1x512x8192_S1x19x512_2_2_1_1_0_0.lhsIdx (ix3 (0 : Fin 1) k c) ((ValueIdx.contrEquiv1 dot_S1x19x8192_S1x512x8192_S1x19x512_2_2_1_1_0_0 8192 rfl rfl).symm s) = ix3 (0 : Fin 1) k s :=
    funext fun a => Fin.ext (by
      match a with
      | ⟨0, _⟩ => exact lhs_0 _ _
      | ⟨1, _⟩ => exact lhs_1 _ _
      | ⟨2, _⟩ => exact (lhs_2 _ _).trans hk)
  have er : dot_S1x19x8192_S1x512x8192_S1x19x512_2_2_1_1_0_0.rhsIdx (ix3 (0 : Fin 1) k c) ((ValueIdx.contrEquiv1 dot_S1x19x8192_S1x512x8192_S1x19x512_2_2_1_1_0_0 8192 rfl rfl).symm s) = ix3 (0 : Fin 1) c s :=
    funext fun a => Fin.ext (by
      match a with
      | ⟨0, _⟩ => exact rhs_0 _ _
      | ⟨1, _⟩ => exact rhs_1 _ _
      | ⟨2, _⟩ => exact (rhs_2 _ _).trans hk)
  rw [el, er]

/-! ## The payloads -/

theorem pay1_eq (v : FVec Ideal S1x19x512 .f32) : k0_pay1 v = v := by unfold k0_pay1; exact shapeCast_self _ _
theorem pay2_eq (v : FVec Ideal S1x19x1 .f32) : k0_pay2 v = v := by unfold k0_pay2; exact shapeCast_self _ _
theorem pay7_eq (x : FVec Ideal S1x19x8192 .f32) : k0_pay7 x = x := by unfold k0_pay7; exact shapeCast_self _ _

/-- The new running maximum of row k. -/
theorem pay8_apply (x0 : FVec Ideal S1x19x8192 .f32) (v7 : FVec Ideal S1x19x1 .f32) (k : Fin 19) :
    k0_pay8 (F := Ideal) x0 v7 (ix3 (0 : Fin 1) k (0 : Fin 1)) = newMax (v7 (ix3 (0 : Fin 1) k (0 : Fin 1))) (fun s : Fin 8192 => x0 (ix3 (0 : Fin 1) k s)) := by
  unfold k0_pay8 newMax
  rw [pay7_eq]
  exact congrArg (max (v7 (ix3 (0 : Fin 1) k (0 : Fin 1)))) ((keepdims_apply _ _ k).trans (max_row x0 _ _ _ k))

/-- The factor that moves row k from the old shift to the new one. -/
theorem pay9_apply (x0 : FVec Ideal S1x19x8192 .f32) (v7 v11 : FVec Ideal S1x19x1 .f32) (k : Fin 19) :
    k0_pay9 (F := Ideal) x0 v7 v11 (ix3 (0 : Fin 1) k (0 : Fin 1))
      = Ideal.exp (v11 (ix3 (0 : Fin 1) k (0 : Fin 1)) - newMax (v7 (ix3 (0 : Fin 1) k (0 : Fin 1))) (fun s : Fin 8192 => x0 (ix3 (0 : Fin 1) k s))) := by
  unfold k0_pay9
  exact congrArg (fun z => Ideal.exp (v11 (ix3 (0 : Fin 1) k (0 : Fin 1)) - z)) (pay8_apply x0 v7 k)

/-- The weight of position s of row k at the new shift. -/
theorem pay10_apply (x0 : FVec Ideal S1x19x8192 .f32) (v7 : FVec Ideal S1x19x1 .f32) (k : Fin 19) (s : Fin 8192) :
    k0_pay10 (F := Ideal) x0 v7 (ix3 (0 : Fin 1) k s)
      = Ideal.exp (x0 (ix3 (0 : Fin 1) k s) - newMax (v7 (ix3 (0 : Fin 1) k (0 : Fin 1))) (fun s : Fin 8192 => x0 (ix3 (0 : Fin 1) k s))) := by
  unfold k0_pay10
  rw [pay7_eq]
  exact congrArg (fun z => Ideal.exp (x0 (ix3 (0 : Fin 1) k s) - z)) ((along_positions _ _ k s).trans (pay8_apply x0 v7 k))

/-- The new normaliser of row k. -/
theorem pay11_apply (x0 : FVec Ideal S1x19x8192 .f32) (v7 v17 : FVec Ideal S1x19x1 .f32) (k : Fin 19) :
    k0_pay11 (F := Ideal) x0 v7 v7 v17 (ix3 (0 : Fin 1) k (0 : Fin 1))
      = newSum (v7 (ix3 (0 : Fin 1) k (0 : Fin 1))) (v17 (ix3 (0 : Fin 1) k (0 : Fin 1))) (fun s : Fin 8192 => x0 (ix3 (0 : Fin 1) k s)) := by
  unfold k0_pay11 newSum
  rw [shapeCast_self]
  refine congrArg₂ (· + ·) (congrArg (· * v17 (ix3 (0 : Fin 1) k (0 : Fin 1))) (pay9_apply x0 v7 v7 k)) ?_
  refine (keepdims_apply _ _ k).trans ((sum_row _ _ _ _ k).trans ?_)
  exact Finset.sum_congr rfl fun s _ => pay10_apply x0 v7 k s

/-- The new weighted sum at (row k, channel c). -/
theorem pay12_apply (x0 : FVec Ideal S1x19x8192 .f32) (x1 : FVec Ideal S1x512x8192 .f32) (v7 : FVec Ideal S1x19x1 .f32)
    (v26 : FVec Ideal S1x19x512 .f32) (k : Fin 19) (c : Fin 512) :
    k0_pay12 (F := Ideal) x0 x1 v7 v7 v26 (ix3 (0 : Fin 1) k c)
      = newAcc (v7 (ix3 (0 : Fin 1) k (0 : Fin 1))) (v26 (ix3 (0 : Fin 1) k c)) (fun s : Fin 8192 => x0 (ix3 (0 : Fin 1) k s))
          (fun s : Fin 8192 => x1 (ix3 (0 : Fin 1) c s)) := by
  unfold k0_pay12 newAcc
  rw [shapeCast_self]
  refine congrArg₂ (· + ·) (congrArg (· * v26 (ix3 (0 : Fin 1) k c)) ((along_channels _ _ k c).trans (pay9_apply x0 v7 v7 k))) ?_
  refine (dot_apply _ _ k c).trans ?_
  exact Finset.sum_congr rfl fun s _ => congrArg (· * x1 (ix3 (0 : Fin 1) c s)) (pay10_apply x0 v7 k s)

/-- The quotient stored at a batch's last step. -/
theorem pay3_apply (v39 : FVec Ideal S1x19x512 .f32) (v40 : FVec Ideal S1x19x1 .f32) (k : Fin 19) (c : Fin 512) :
    k0_pay3 (F := Ideal) v39 v40 (ix3 (0 : Fin 1) k c) = Ideal.div (v39 (ix3 (0 : Fin 1) k c)) (v40 (ix3 (0 : Fin 1) k (0 : Fin 1))) := by
  unfold k0_pay3
  exact congrArg (Ideal.div (v39 (ix3 (0 : Fin 1) k c))) (along_channels v40 _ k c)

end Cert.KernelIdeal.Payload

end
-- ==== Proof.Steps.lean ====
/-
  One grid step on the extended reals, row by row: what the step leaves in the carried buffers and in the output
  block, read at an index, in the running form's own steps (`Cert.Pooling.newMax`, `newSum`, `newAcc`).  A batch's
  first step is the step from the state (−∞, 0, 0); its last step also stores weighted sum / normaliser.
-/
import proofs.«153419_j52905407152962_2_alg».proof.Proof.Pieces
import proofs.«153419_j52905407152962_2_alg».proof.Proof.Payload

set_option maxRecDepth 16384

noncomputable section

open Idealize.ShloMosaic Idealize.ShloMosaic.TcCoe Idealize.SL.Sem

namespace Cert.KernelIdeal.Steps

open Cert.KernelIdeal Cert.KernelIdeal.Gen Idealize.ShloMosaic.ValueIdx Cert.Pooling Cert.KernelIdeal.Payload

/-- First step: the running maximum of row k. -/
theorem first_max_apply (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S1x19x1 .f32) (harg5 : arg5.IsWhole) (arg6 : Memref sig .tc .vmem S1x19x1 .f32) (harg6 : arg6.IsWhole) (arg7 : Memref sig .tc .vmem S1x19x512 .f32) (harg7 : arg7.IsWhole) (hc0 : cond0_0 i) (hc1 : ¬cond0_1 i)
    (x0 : FVec Ideal S1x19x8192 .f32) (x1 : FVec Ideal S1x512x8192 .f32) (k : Fin 19) :
    sout0_A_0 (F := Ideal) c i arg2 harg2 arg3 harg3 arg4 harg4 arg5 harg5 arg6 harg6 arg7 harg7 hc0 hc1 x0 x1 (ix3 (0 : Fin 1) k (0 : Fin 1)) = newMax ⊥ (fun s : Fin 8192 => x0 (ix3 (0 : Fin 1) k s)) := by
  rw [Pieces.first_max, pay2_eq, pay8_apply, pay4_apply]

/-- First step: the normaliser of row k. -/
theorem first_sum_apply (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S1x19x1 .f32) (harg5 : arg5.IsWhole) (arg6 : Memref sig .tc .vmem S1x19x1 .f32) (harg6 : arg6.IsWhole) (arg7 : Memref sig .tc .vmem S1x19x512 .f32) (harg7 : arg7.IsWhole) (hc0 : cond0_0 i) (hc1 : ¬cond0_1 i)
    (x0 : FVec Ideal S1x19x8192 .f32) (x1 : FVec Ideal S1x512x8192 .f32) (k : Fin 19) :
    sout0_A_1 (F := Ideal) c i arg2 harg2 arg3 harg3 arg4 harg4 arg5 harg5 arg6 harg6 arg7 harg7 hc0 hc1 x0 x1 (ix3 (0 : Fin 1) k (0 : Fin 1)) = newSum ⊥ 0 (fun s : Fin 8192 => x0 (ix3 (0 : Fin 1) k s)) := by
  rw [Pieces.first_sum, pay11_apply, pay4_apply, pay5_apply]

/-- First step: the weighted sum at (row k, channel ch). -/
theorem first_acc_apply (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S1x19x1 .f32) (harg5 : arg5.IsWhole) (arg6 : Memref sig .tc .vmem S1x19x1 .f32) (harg6 : arg6.IsWhole) (arg7 : Memref sig .tc .vmem S1x19x512 .f32) (harg7 : arg7.IsWhole) (hc0 : cond0_0 i) (hc1 : ¬cond0_1 i)
    (x0 : FVec Ideal S1x19x8192 .f32) (x1 : FVec Ideal S1x512x8192 .f32) (k : Fin 19) (ch : Fin 512) :
    sout0_A_2 (F := Ideal) c i arg2 harg2 arg3 harg3 arg4 harg4 arg5 harg5 arg6 harg6 arg7 harg7 hc0 hc1 x0 x1 (ix3 (0 : Fin 1) k ch) = newAcc ⊥ 0 (fun s : Fin 8192 => x0 (ix3 (0 : Fin 1) k s)) (fun s : Fin 8192 => x1 (ix3 (0 : Fin 1) ch s)) := by
  rw [Pieces.first_acc, pay1_eq, pay12_apply, pay4_apply, pay6_apply]

/-- Last step: the stored quotient at (row k, channel ch), from what the step before left. -/
theorem last_out_apply (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S1x19x1 .f32) (harg5 : arg5.IsWhole) (arg6 : Memref sig .tc .vmem S1x19x1 .f32) (harg6 : arg6.IsWhole) (arg7 : Memref sig .tc .vmem S1x19x512 .f32) (harg7 : arg7.IsWhole) (hc0 : ¬cond0_0 i) (hc1 : cond0_1 i)
    (x0 : FVec Ideal S1x19x8192 .f32) (x1 : FVec Ideal S1x512x8192 .f32) (xs0 : FVec Ideal S1x19x1 .f32) (xs1 : FVec Ideal S1x19x1 .f32) (xs2 : FVec Ideal S1x19x512 .f32) (k : Fin 19) (ch : Fin 512) :
    out0_B_2 (F := Ideal) c i arg2 harg2 arg3 harg3 arg4 harg4 arg5 harg5 arg6 harg6 arg7 harg7 hc0 hc1 x0 x1 xs0 xs1 xs2 (ix3 (0 : Fin 1) k ch)
      = Ideal.div (newAcc (xs0 (ix3 (0 : Fin 1) k (0 : Fin 1))) (xs2 (ix3 (0 : Fin 1) k ch)) (fun s : Fin 8192 => x0 (ix3 (0 : Fin 1) k s)) (fun s : Fin 8192 => x1 (ix3 (0 : Fin 1) ch s)))
          (newSum (xs0 (ix3 (0 : Fin 1) k (0 : Fin 1))) (xs1 (ix3 (0 : Fin 1) k (0 : Fin 1))) (fun s : Fin 8192 => x0 (ix3 (0 : Fin 1) k s))) := by
  rw [Pieces.last_out, pay3_apply, pay1_eq, pay12_apply, pay11_apply]

end Cert.KernelIdeal.Steps

end
-- ==== Proof.KernelValue.lean ====
/-
  What the kernel's result holds, on the extended reals.

  The grid is (batch b, half h): point t is batch t / 2, half t % 2.  At a batch's first half the body starts the
  three carried buffers afresh and at its second half it stores the output block, so the block the second half
  writes back is two steps of the running form of softmax pooling (`Cert.Pooling.onePass`) over the two halves of
  the batch's rows: at (row k, channel c), over positions 0 … 8191 and 8192 … 16383 of row k of the scores and of
  channel c of the features, both read off the arrays as the region finds them (the two reshaped arguments).  The
  output blocks [1, 19, 512] tile the [16, 19, 512] array, one per batch, and the host transposes it to
  [16, 512, 19].
-/
import proofs.«153419_j52905407152962_2_alg».proof.Proof.Pieces
import proofs.«153419_j52905407152962_2_alg».proof.Proof.Payload
import proofs.«153419_j52905407152962_2_alg».proof.Proof.Steps
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pool

open Cert.KernelIdeal Cert.KernelIdeal.Gen Idealize.ShloMosaic.ValueIdx Cert.Pooling Cert.KernelIdeal.Payload

variable (m : (ℓ : Loc nD τ sig) → Buf (Elt Ideal) ℓ) (ρ : Dev nD → PrngReg)

/-! ## The specification -/

/-- Softmax pooling of batch b at (row k, channel c), in the running form over the two halves of the positions. -/
def poolAt (P : S16x19x16384.Idx → EReal) (Fe : S16x512x16384.Idx → EReal) (b : Fin 16) (k : Fin 19) (c : Fin 512) : EReal :=
  onePass (fun s : Fin 8192 => P (ix3 b k (Fin.castAdd 8192 s))) (fun s : Fin 8192 => Fe (ix3 b c (Fin.castAdd 8192 s)))
    (fun s : Fin 8192 => P (ix3 b k (Fin.natAdd 8192 s))) (fun s : Fin 8192 => Fe (ix3 b c (Fin.natAdd 8192 s)))

/-- The [16, 19, 512] array of them. -/
def pooled (P : S16x19x16384.Idx → EReal) (Fe : S16x512x16384.Idx → EReal) : S16x19x512.Idx → EReal :=
  fun j => poolAt P Fe (j 0) (j 1) (j 2)

/-! ## The points -/

/-- The printed index maps over the grid: every window is at its batch on axis 0; the inputs are at the point's
    half on the position axis. -/
theorem idx_facts : ∀ t : Fin cfg0.N,
    win0_0.index t (0 : Fin 3) = t.val / 2 ∧ win0_0.index t (1 : Fin 3) = 0 ∧ win0_0.index t (2 : Fin 3) = t.val % 2
    ∧ win0_1.index t (0 : Fin 3) = t.val / 2 ∧ win0_1.index t (1 : Fin 3) = 0 ∧ win0_1.index t (2 : Fin 3) = t.val % 2
    ∧ win0_2.index t (0 : Fin 3) = t.val / 2 ∧ win0_2.index t (1 : Fin 3) = 0 ∧ win0_2.index t (2 : Fin 3) = 0 :=
  (by decide +kernel : ∀ t : Fin grid0.N, _)

/-- The point before. -/
abbrev prev (t : Fin cfg0.N) : Fin cfg0.N := ⟨t.val - 1, Nat.lt_of_le_of_lt (Nat.sub_le _ _) t.isLt⟩

/-- What a batch's first point leaves in the three carried buffers, at row k (and channel ch): the first step of the
    running form over the rows of its two blocks. -/
theorem carried_first (c : Dev nD) (t : Fin cfg0.N) (h : t.val % 2 = 0) (h1 : ¬t.val % 2 = 1) (k : Fin 19) (ch : Fin 512) :
    (outsAt0 m c t.val t.isLt).2.1 (ix3 (0 : Fin 1) k (0 : Fin 1)) = newMax ⊥ (fun s : Fin 8192 => iblk m c 0 t (ix3 (0 : Fin 1) k s))
    ∧ (outsAt0 m c t.val t.isLt).2.2.1 (ix3 (0 : Fin 1) k (0 : Fin 1)) = newSum ⊥ 0 (fun s : Fin 8192 => iblk m c 0 t (ix3 (0 : Fin 1) k s))
    ∧ (outsAt0 m c t.val t.isLt).2.2.2 (ix3 (0 : Fin 1) k ch) = newAcc ⊥ 0 (fun s : Fin 8192 => iblk m c 0 t (ix3 (0 : Fin 1) k s)) (fun s : Fin 8192 => iblk m c 1 t (ix3 (0 : Fin 1) ch s)) := by
  rw [outsAt0_A m c t h h1]
  dsimp only
  exact ⟨Steps.first_max_apply c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h) (fun h' => h1 ((hcond0_1 t).mp h')) (iblk m c 0 t) (iblk m c 1 t) k,
    Steps.first_sum_apply c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h) (fun h' => h1 ((hcond0_1 t).mp h')) (iblk m c 0 t) (iblk m c 1 t) k,
    Steps.first_acc_apply c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h) (fun h' => h1 ((hcond0_1 t).mp h')) (iblk m c 0 t) (iblk m c 1 t) k ch⟩

/-- What a batch's second point leaves in the output's staging buffer, at (row k, channel ch): the running form over
    the rows of the two points' blocks. -/
theorem second_point_apply (c : Dev nD) (t : Fin cfg0.N) (h1 : t.val % 2 = 1) (k : Fin 19) (ch : Fin 512) :
    (outsAt0 m c t.val t.isLt).1 (ix3 (0 : Fin 1) k ch)
      = onePass (fun s : Fin 8192 => iblk m c 0 (prev t) (ix3 (0 : Fin 1) k s)) (fun s : Fin 8192 => iblk m c 1 (prev t) (ix3 (0 : Fin 1) ch s)) (fun s : Fin 8192 => iblk m c 0 t (ix3 (0 : Fin 1) k s)) (fun s : Fin 8192 => iblk m c 1 t (ix3 (0 : Fin 1) ch s)) := by
  have h0 : ¬t.val % 2 = 0 := by omega
  have hp : (prev t).val % 2 = 0 := by show (t.val - 1) % 2 = 0; omega
  have hp1 : ¬(prev t).val % 2 = 1 := by show ¬(t.val - 1) % 2 = 1; omega
  obtain ⟨eM, eL, eA⟩ := carried_first m c (prev t) hp hp1 k ch
  have eM' : (outsAt0 m c (t.val - 1) (Nat.lt_of_le_of_lt (Nat.sub_le _ _) t.isLt)).2.1 (ix3 (0 : Fin 1) k (0 : Fin 1)) = newMax ⊥ (fun s : Fin 8192 => iblk m c 0 (prev t) (ix3 (0 : Fin 1) k s)) := eM
  have eL' : (outsAt0 m c (t.val - 1) (Nat.lt_of_le_of_lt (Nat.sub_le _ _) t.isLt)).2.2.1 (ix3 (0 : Fin 1) k (0 : Fin 1)) = newSum ⊥ 0 (fun s : Fin 8192 => iblk m c 0 (prev t) (ix3 (0 : Fin 1) k s)) := eL
  have eA' : (outsAt0 m c (t.val - 1) (Nat.lt_of_le_of_lt (Nat.sub_le _ _) t.isLt)).2.2.2 (ix3 (0 : Fin 1) k ch) = newAcc ⊥ 0 (fun s : Fin 8192 => iblk m c 0 (prev t) (ix3 (0 : Fin 1) k s)) (fun s : Fin 8192 => iblk m c 1 (prev t) (ix3 (0 : Fin 1) ch s)) := eA
  rw [outsAt0_B m c t h0 h1]
  dsimp only
  refine (Steps.last_out_apply c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h' => h0 ((hcond0_0 t).mp h')) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 k ch).trans ?_
  rw [eM', eL', eA']
  rfl

/-! ## The input blocks, read off the arrays the region finds -/

/-- Row k of the scores block of batch b's first half is positions 0 … 8191 of row (b, k). -/
theorem scores_first (c : Dev nD) (t : Fin cfg0.N) (b : Fin 16) (ht : t.val = 2 * b.val) (k : Fin 19) (s : Fin 8192) :
    iblk m c 0 t (ix3 (0 : Fin 1) k s) = V m c main_v0 (ix3 b k (Fin.castAdd 8192 s)) := by
  obtain ⟨e0, e1, e2, -⟩ := idx_facts t
  show V m c main_v0 (((cfg0.win 0).blk t).view.emb (ix3 (0 : Fin 1) k s)) = _
  congr 1
  funext a; apply Fin.ext
  match a with
  | ⟨0, _⟩ => show win0_0.index t (0 : Fin 3) * 1 + 1 * 0 = b.val; omega
  | ⟨1, _⟩ => show win0_0.index t (1 : Fin 3) * 19 + 1 * k.val = k.val; omega
  | ⟨2, _⟩ => show win0_0.index t (2 : Fin 3) * 8192 + 1 * s.val = s.val; omega

/-- Of its second half, positions 8192 … 16383. -/
theorem scores_second (c : Dev nD) (t : Fin cfg0.N) (b : Fin 16) (ht : t.val = 2 * b.val + 1) (k : Fin 19) (s : Fin 8192) :
    iblk m c 0 t (ix3 (0 : Fin 1) k s) = V m c main_v0 (ix3 b k (Fin.natAdd 8192 s)) := by
  obtain ⟨e0, e1, e2, -⟩ := idx_facts t
  show V m c main_v0 (((cfg0.win 0).blk t).view.emb (ix3 (0 : Fin 1) k s)) = _
  congr 1
  funext a; apply Fin.ext
  match a with
  | ⟨0, _⟩ => show win0_0.index t (0 : Fin 3) * 1 + 1 * 0 = b.val; omega
  | ⟨1, _⟩ => show win0_0.index t (1 : Fin 3) * 19 + 1 * k.val = k.val; omega
  | ⟨2, _⟩ => show win0_0.index t (2 : Fin 3) * 8192 + 1 * s.val = 8192 + s.val; omega

/-- Channel ch of the features block of batch b's first half, -/
theorem feats_first (c : Dev nD) (t : Fin cfg0.N) (b : Fin 16) (ht : t.val = 2 * b.val) (ch : Fin 512) (s : Fin 8192) :
    iblk m c 1 t (ix3 (0 : Fin 1) ch s) = V m c main_v1 (ix3 b ch (Fin.castAdd 8192 s)) := by
  obtain ⟨-, -, -, e0, e1, e2, -⟩ := idx_facts t
  show V m c main_v1 (((cfg0.win 1).blk t).view.emb (ix3 (0 : Fin 1) ch s)) = _
  congr 1
  funext a; apply Fin.ext
  match a with
  | ⟨0, _⟩ => show win0_1.index t (0 : Fin 3) * 1 + 1 * 0 = b.val; omega
  | ⟨1, _⟩ => show win0_1.index t (1 : Fin 3) * 512 + 1 * ch.val = ch.val; omega
  | ⟨2, _⟩ => show win0_1.index t (2 : Fin 3) * 8192 + 1 * s.val = s.val; omega

/-- and of its second half. -/
theorem feats_second (c : Dev nD) (t : Fin cfg0.N) (b : Fin 16) (ht : t.val = 2 * b.val + 1) (ch : Fin 512) (s : Fin 8192) :
    iblk m c 1 t (ix3 (0 : Fin 1) ch s) = V m c main_v1 (ix3 b ch (Fin.natAdd 8192 s)) := by
  obtain ⟨-, -, -, e0, e1, e2, -⟩ := idx_facts t
  show V m c main_v1 (((cfg0.win 1).blk t).view.emb (ix3 (0 : Fin 1) ch s)) = _
  congr 1
  funext a; apply Fin.ext
  match a with
  | ⟨0, _⟩ => show win0_1.index t (0 : Fin 3) * 1 + 1 * 0 = b.val; omega
  | ⟨1, _⟩ => show win0_1.index t (1 : Fin 3) * 512 + 1 * ch.val = ch.val; omega
  | ⟨2, _⟩ => show win0_1.index t (2 : Fin 3) * 8192 + 1 * s.val = 8192 + s.val; omega

/-! ## The write-back and the array -/

/-- WHAT A BATCH'S SECOND POINT WRITES BACK is that batch's block of the pooled array. -/
theorem flushed_eq (c : Dev nD) (t : Fin cfg0.N) (hf : (cfg0.win 2).flush t = true) :
    (dats m 0 c).flushed 2 t = ((cfg0.win 2).blk t).view.read (Elt Ideal) (pooled (V m c main_v0) (V m c main_v1)) := by
  have hN : cfg0.N = 32 := N_0
  have h1 : t.val % 2 = 1 := (flush0_2 t).mp hf
  have htl : t.val < 32 := lt_of_lt_of_eq t.isLt hN
  obtain ⟨b, hb⟩ : ∃ b : Fin 16, t.val = 2 * b.val + 1 := ⟨⟨t.val / 2, by omega⟩, by show t.val = 2 * (t.val / 2) + 1; omega⟩
  have hpb : (prev t).val = 2 * b.val := by show t.val - 1 = 2 * b.val; omega
  obtain ⟨-, -, -, -, -, -, e0, e1, e2⟩ := idx_facts t
  show (cfg0.win 2).cut (grid0.coords t) ((dats m 0 c).after 2 t) = _
  rw [after0_2]
  funext y
  obtain ⟨u, k, ch, rfl⟩ : ∃ (u : Fin 1) (k : Fin 19) (ch : Fin 512), y = ix3 u k ch := ⟨y 0, y 1, y 2, eq_ix3 y⟩
  obtain rfl : u = 0 := Subsingleton.elim _ _
  have hemb : ((cfg0.win 2).blk t).view.emb (ix3 (0 : Fin 1) k ch) = ix3 b k ch := by
    funext a; apply Fin.ext
    match a with
    | ⟨0, _⟩ => show win0_2.index t (0 : Fin 3) * 1 + 1 * 0 = b.val; omega
    | ⟨1, _⟩ => show win0_2.index t (1 : Fin 3) * 19 + 1 * k.val = k.val; omega
    | ⟨2, _⟩ => show win0_2.index t (2 : Fin 3) * 512 + 1 * ch.val = ch.val; omega
  show (outsAt0 m c t.val t.isLt).1 (ix3 (0 : Fin 1) k ch)
    = pooled (V m c main_v0) (V m c main_v1) (((cfg0.win 2).blk t).view.emb (ix3 (0 : Fin 1) k ch))
  rw [hemb]
  refine (second_point_apply m c t h1 k ch).trans ?_
  show _ = poolAt (V m c main_v0) (V m c main_v1) b k ch
  unfold poolAt
  have r0 : (fun s : Fin 8192 => iblk m c 0 (prev t) (ix3 (0 : Fin 1) k s)) = fun s : Fin 8192 => V m c main_v0 (ix3 b k (Fin.castAdd 8192 s)) :=
    funext fun s => scores_first m c (prev t) b hpb k s
  have r1 : (fun s : Fin 8192 => iblk m c 1 (prev t) (ix3 (0 : Fin 1) ch s)) = fun s : Fin 8192 => V m c main_v1 (ix3 b ch (Fin.castAdd 8192 s)) :=
    funext fun s => feats_first m c (prev t) b hpb ch s
  have r2 : (fun s : Fin 8192 => iblk m c 0 t (ix3 (0 : Fin 1) k s)) = fun s : Fin 8192 => V m c main_v0 (ix3 b k (Fin.natAdd 8192 s)) :=
    funext fun s => scores_second m c t b hb k s
  have r3 : (fun s : Fin 8192 => iblk m c 1 t (ix3 (0 : Fin 1) ch s)) = fun s : Fin 8192 => V m c main_v1 (ix3 b ch (Fin.natAdd 8192 s)) :=
    funext fun s => feats_second m c t b hb ch s
  rw [r0, r1, r2, r3]

/-- An index of the array is in point t's output block iff each coordinate is in the block's range on its axis. -/
theorem mem_blk (t : Fin cfg0.N) (i : S16x19x512.Idx) :
    i ∈ ((cfg0.win 2).blk t).view.set ↔ ∀ a : Fin 3, win0_2.index t a * S1x19x512.size a ≤ (i a).val ∧ (i a).val < win0_2.index t a * S1x19x512.size a + S1x19x512.size a := by
  show i ∈ ((View.whole main_v2).slice (win0_2.rect t)).set ↔ _
  rw [View.set_slice_whole, Rect.mem_set_unit]
  exact Iff.rfl

/-- Every index of the array is in the block its batch's second point writes back. -/
theorem cover (i : S16x19x512.Idx) : ∃ t : Fin cfg0.N, (cfg0.win 2).flush t = true ∧ i ∈ ((cfg0.win 2).blk t).view.set := by
  have hN : cfg0.N = 32 := N_0
  have h0 : (i 0).val < 16 := (i 0).isLt
  have h1 : (i 1).val < 19 := (i 1).isLt
  have h2 : (i 2).val < 512 := (i 2).isLt
  have hlt : 2 * (i 0).val + 1 < cfg0.N := by omega
  obtain ⟨-, -, -, -, -, -, e0, e1, e2⟩ := idx_facts ⟨2 * (i 0).val + 1, hlt⟩
  refine ⟨⟨2 * (i 0).val + 1, hlt⟩, (flush0_2 _).mpr (by show (2 * (i 0).val + 1) % 2 = 1; omega), ?_⟩
  rw [mem_blk]
  intro a
  match a with
  | ⟨0, _⟩ => show win0_2.index ⟨2 * (i 0).val + 1, hlt⟩ (0 : Fin 3) * 1 ≤ (i 0).val ∧ (i 0).val < win0_2.index ⟨2 * (i 0).val + 1, hlt⟩ (0 : Fin 3) * 1 + 1
              have e0' : win0_2.index ⟨2 * (i 0).val + 1, hlt⟩ (0 : Fin 3) = (2 * (i 0).val + 1) / 2 := e0
              omega
  | ⟨1, _⟩ => show win0_2.index ⟨2 * (i 0).val + 1, hlt⟩ (1 : Fin 3) * 19 ≤ (i 1).val ∧ (i 1).val < win0_2.index ⟨2 * (i 0).val + 1, hlt⟩ (1 : Fin 3) * 19 + 19
              omega
  | ⟨2, _⟩ => show win0_2.index ⟨2 * (i 0).val + 1, hlt⟩ (2 : Fin 3) * 512 ≤ (i 2).val ∧ (i 2).val < win0_2.index ⟨2 * (i 0).val + 1, hlt⟩ (2 : Fin 3) * 512 + 512
              omega

/-- So the kernel's result array ends at the pooled array of the two arrays the region finds. -/
theorem final (c : Dev nD) : (dats m 0 c).arrAt 2 cfg0.N = pooled (V m c main_v0) (V m c main_v1) :=
  (dats m 0 c).arrAt_eq_of_cover 2 (pooled (V m c main_v0) (V m c main_v1)) (fun t hf => flushed_eq m c t hf) cover

end Cert.KernelIdeal.Pool

end
-- ==== Proof.KernelRun.lean ====
/-
  The kernel's run, read: the arrays the region finds are the two arguments reshaped, the region's result array is
  the pooled array of them (`Pool.final`), and the host transposes it; so every weakly fair execution ends with the
  result buffer at `result` — softmax pooling in its running form over the two halves of the positions, at
  (batch, channel, row) — and the arguments unchanged.
-/
import proofs.«153419_j52905407152962_2_alg».proof.Proof.KernelValue

set_option maxRecDepth 16384

noncomputable section

open Idealize.ShloMosaic Idealize.ShloMosaic.TcCoe Idealize.SL.Sem
open Idealize.ShloMosaic.Pipeline (Dat)

namespace Cert.KernelIdeal.Pool

open Cert.KernelIdeal Cert.KernelIdeal.Gen Idealize.ShloMosaic.ValueIdx Cert.Pooling

variable (m : (ℓ : Loc nD τ sig) → Buf (Elt Ideal) ℓ) (ρ : Dev nD → PrngReg)

/-- The scores as the region finds them: the second argument reshaped to [16, 19, 16384]. -/
theorem scores_entry (c : Dev nD) :
    (V m c main_v0 : S16x19x16384.Idx → EReal)
      = shapeCast S16x19x16384 (m ((c : Thread nD τ).loc main_arg1)) shapeCasts_S16x19x128x128_S16x19x16384 := by
  show StableHlo.after hostOps0 (fun b => m (c, b)) (Proc.devRef .tc main_v0) = _
  after_results
  rfl

/-- The features as the region finds them: the first argument reshaped to [16, 512, 16384]. -/
theorem feats_entry (c : Dev nD) :
    (V m c main_v1 : S16x512x16384.Idx → EReal)
      = shapeCast S16x512x16384 (m ((c : Thread nD τ).loc main_arg0)) shapeCasts_S16x512x128x128_S16x512x16384 := by
  show StableHlo.after hostOps0 (fun b => m (c, b)) (Proc.devRef .tc main_v1) = _
  after_results
  rfl

/-- The pooled array of the two reshaped arguments, transposed to [16, 512, 19]. -/
def resultOf (a0 : S16x512x128x128.Idx → EReal) (a1 : S16x19x128x128.Idx → EReal) : S16x512x19.Idx → EReal :=
  transpose S16x512x19 [0, 2, 1]
    (pooled (shapeCast S16x19x16384 a1 shapeCasts_S16x19x128x128_S16x19x16384)
      (shapeCast S16x512x16384 a0 shapeCasts_S16x512x128x128_S16x512x16384))
    transposes_S16x19x512_S16x512x19_0_2_1

/-- THE RESULT, of the arguments' launch contents. -/
def result (c : Dev nD) : S16x512x19.Idx → EReal :=
  resultOf (m ((c : Thread nD τ).loc main_arg0)) (m ((c : Thread nD τ).loc main_arg1))

/-- After the host's transpose the result buffer holds it. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.tc.devRef main_v2)
      = pooled (V m c main_v0) (V m c main_v1) from
    (Pipeline.withArrays_arr spec0 launch0.win.arr_inj c _ _ 2).trans (final m c)]
  rw [scores_entry m c, feats_entry m c]
  rfl

/-- THE RUN, read: the result buffer at `result`, the arguments unchanged. -/
theorem run : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Pool

end
-- ==== Proof.RefValue.lean ====
/-
  What the reference's result holds, on the extended reals.

  Read one operation at a time, the reference at (batch b, channel c, row k) is the plain form of softmax pooling
  (`Cert.Pooling.twoPass`) over the 16384 positions of row (b, k) of the reshaped scores and of channel (b, c) of the
  reshaped features: the scores are first multiplied by the literal 1, the shift is the row's maximum (reduced from
  −∞ and taken once more against −∞), the weights are e^(score − shift), the normaliser is their sum from 0, and
  the contraction sums feature × (weight / normaliser) over the positions.
-/
import proofs.«153419_j52905407152962_2_alg».proof.Proof.Gen.ReferenceIdeal.Read
import proofs.«153419_j52905407152962_2_alg».proof.Proof.LibOnlineSoftmax
import Idealize.ShloMosaic.Lib.ValueIdx
import Idealize.ShloMosaic.PureOps.Ideal.Laws

noncomputable section

namespace Cert.ReferenceIdeal.Pool

open Cert.ReferenceIdeal Cert.ReferenceIdeal.Gen Cert.ReferenceIdeal.Read Idealize.ShloMosaic Idealize.ShloMosaic.ValueIdx Cert.Pooling

/-- The pattern of −∞ denotes the bottom of the extended reals, -/
theorem neg_inf : Ideal.ofBits .f32 0xFF800000#32 = (⊥ : EReal) := by simp [Ideal.ofBits, Ideal.ieee]

/-- and the pattern of 1.0 denotes 1. -/
theorem one_f32 : Ideal.ofBits .f32 0x3F800000#32 = (1 : EReal) := by
  simp [Ideal.ofBits, Ideal.ieee, -EReal.coe_mul]; norm_num

variable (x1 : (⟨S16x19x128x128, .f32⟩ : BufTy).Contents (Elt Ideal)) (x0 : (⟨S16x512x128x128, .f32⟩ : BufTy).Contents (Elt Ideal))

/-- Multiplying by the literal 1 leaves the reshaped scores as they are. -/
theorem scaled_eq : val_main_v2 (F := Ideal) x1 = val_main_v0 (F := Ideal) x1 := by
  funext j
  rw [val_main_v2_apply, val_main_v1_apply, val_main_cst_apply]
  show Ideal.ofBits .f32 0x3F800000#32 * _ = _
  rw [one_f32, one_mul]

/-- Row (b, k) with position s put back is (b, k, s). -/
theorem lift_row (h : S16x19x16384.Reduces [2] S16x19) (b : Fin 16) (k : Fin 19) (s : Fin (S16x19x16384.size 2)) :
    h.lift (ix2 b k) s = ix3 b k (⟨s.val, s.isLt⟩ : Fin 16384) := by
  funext c; apply Fin.ext; fin_cases c <;> rfl

set_option maxRecDepth 100000 in
/-- The shift of row (b, k): the row's maximum, taken against −∞. -/
theorem shift_apply (b : Fin 16) (k : Fin 19) :
    val_main_v5 (F := Ideal) x1 (ix2 b k) = max ⊥ (rowMax (fun s : Fin 16384 => val_main_v0 (F := Ideal) x1 (ix3 b k s))) := by
  have h : S16x19x16384.Reduces [2] S16x19 := by decide
  rw [val_main_v5_apply, val_main_v4_apply, val_main_cst_1_apply]
  show max (Ideal.ofBits .f32 0xFF800000#32) (val_main_v3 (F := Ideal) x1 (ix2 b k)) = _
  rw [neg_inf]
  refine congrArg (max ⊥) ?_
  unfold val_main_v3
  rw [scaled_eq]
  refine (Host.reduce_eq_fold_single (FloatOps.maximumf (F := Ideal) (φ := .f32)) (val_main_v0 (F := Ideal) x1) (val_main_cst_0 (F := Ideal)) reducesTo_S16x19x16384_S16x19_d2 h h_S_ (ix2 b k)).trans ?_
  show (Finset.univ : Finset (Fin 16384)).fold max (Ideal.ofBits .f32 0xFF800000#32)
      (fun s => val_main_v0 (F := Ideal) x1 (h.lift (ix2 b k) s))
    = (Finset.univ : Finset (Fin 16384)).fold max ⊥ (fun s : Fin 16384 => val_main_v0 (F := Ideal) x1 (ix3 b k s))
  rw [neg_inf]
  exact Finset.fold_congr fun s _ => congrArg (val_main_v0 (F := Ideal) x1) (lift_row h b k s)

/-- The weight of position s of row (b, k). -/
theorem weight_apply (b : Fin 16) (k : Fin 19) (s : Fin 16384) :
    val_main_v9 (F := Ideal) x1 (ix3 b k s)
      = Ideal.exp (val_main_v0 (F := Ideal) x1 (ix3 b k s)
          - max ⊥ (rowMax (fun s : Fin 16384 => val_main_v0 (F := Ideal) x1 (ix3 b k s)))) := by
  have e : idx_main_v6 (idx_main_v7 (ix3 b k s)) = ix2 b k := by
    funext a; match a with | ⟨0, _⟩ => rfl | ⟨1, _⟩ => rfl
  rw [val_main_v9_apply, val_main_v8_apply, val_main_v7_apply, val_main_v6_apply, e, shift_apply, scaled_eq]
  rfl

/-- The normaliser of row (b, k): the sum of its weights. -/
theorem norm_apply (b : Fin 16) (k : Fin 19) :
    val_main_v10 (F := Ideal) x1 (ix2 b k)
      = ∑ s' : Fin 16384, Ideal.exp (val_main_v0 (F := Ideal) x1 (ix3 b k s')
          - max ⊥ (rowMax (fun s : Fin 16384 => val_main_v0 (F := Ideal) x1 (ix3 b k s)))) := by
  rw [val_main_v10_apply, val_main_cst_2_apply]
  show Ideal.ofBits .f32 0x00000000#32 + _ = _
  rw [Ideal.ofBits_zero_f32, zero_add]
  refine Finset.sum_congr rfl fun s' _ => ?_
  have e : idx_main_v10 (ix2 b k) s' = ix3 b k s' := by
    funext a; match a with | ⟨0, _⟩ => rfl | ⟨1, _⟩ => rfl | ⟨2, _⟩ => rfl
  rw [e, weight_apply]

/-- The softmax of row (b, k) at position s. -/
theorem softmax_apply (b : Fin 16) (k : Fin 19) (s : Fin 16384) :
    val_main_v13 (F := Ideal) x1 (ix3 b k s)
      = Ideal.div (Ideal.exp (val_main_v0 (F := Ideal) x1 (ix3 b k s)
            - max ⊥ (rowMax (fun s : Fin 16384 => val_main_v0 (F := Ideal) x1 (ix3 b k s)))))
          (∑ s' : Fin 16384, Ideal.exp (val_main_v0 (F := Ideal) x1 (ix3 b k s')
            - max ⊥ (rowMax (fun s : Fin 16384 => val_main_v0 (F := Ideal) x1 (ix3 b k s))))) := by
  have e : idx_main_v11 (idx_main_v12 (ix3 b k s)) = ix2 b k := by
    funext a; match a with | ⟨0, _⟩ => rfl | ⟨1, _⟩ => rfl
  rw [val_main_v13_apply, val_main_v12_apply, val_main_v11_apply, e, norm_apply, weight_apply]
  rfl

/-- THE REFERENCE at (batch b, channel c, row k) is the plain form over row (b, k) of the reshaped scores and
    channel (b, c) of the reshaped features. -/
theorem ref_apply (b : Fin 16) (c : Fin 512) (k : Fin 19) :
    val_main_v15 (F := Ideal) x0 x1 (ix3 b c k)
      = twoPass (fun s : Fin 16384 => val_main_v0 (F := Ideal) x1 (ix3 b k s))
          (fun s : Fin 16384 => val_main_v14 (F := Ideal) x0 (ix3 b c s)) := by
  rw [val_main_v15_apply]
  unfold twoPass
  refine Finset.sum_congr rfl fun s _ => ?_
  have el : lidx_main_v15 (ix3 b c k) s = ix3 b c s := by
    funext a; match a with | ⟨0, _⟩ => rfl | ⟨1, _⟩ => rfl | ⟨2, _⟩ => rfl
  have er : ridx_main_v15 (ix3 b c k) s = ix3 b k s := by
    funext a; match a with | ⟨0, _⟩ => rfl | ⟨1, _⟩ => rfl | ⟨2, _⟩ => rfl
  rw [el, er, softmax_apply]

end Cert.ReferenceIdeal.Pool

end
-- ==== Proof.Finite.lean ====
/-
  The precondition read back: every entry of both arguments is a real number.

  The printed predicate is  all(|feats| < +∞) and all(|probs| < +∞).  Each `all` is a reduction by `and` from 1 into
  one result, so it is 1 only if the comparison is 1 at every index; and an extended real whose absolute value
  max(x, −x) is below +∞ is neither +∞ nor −∞.
-/
import proofs.«153419_j52905407152962_2_alg».proof.Pre_finite_inputs
import proofs.«153419_j52905407152962_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic

instance : Subsingleton S_.Idx := ⟨fun a b => funext fun d => d.elim0⟩

/-- The pattern of +∞ denotes the top of the extended reals. -/
theorem pos_inf : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ r : ℝ, x = r := by
  induction x using EReal.rec with
  | bot => exact absurd h (by simp)
  | coe r => exact ⟨r, rfl⟩
  | top => exact absurd h (by simp)

/-- A comparison that came out 1 holds. -/
theorem lt_of_cmp_olt (x y : EReal) (h : Ideal.cmp .olt x y = 1#1) : x < y := by
  by_contra hn
  have e : Ideal.cmp .olt x y = BitVec.ofBool (decide (x < y)) := rfl
  rw [e, decide_eq_false hn] at h
  exact absurd h (by decide)

/-- Under the precondition every entry of both arguments is a real number. -/
theorem real_of_pre (a0 : FVec Ideal S16x512x128x128 .f32) (a1 : FVec Ideal S16x19x128x128 .f32)
    (h : fn (F := Ideal) a0 a1 = fun _ => 1#1) :
    (∀ i, ∃ r : ℝ, a0 i = r) ∧ (∀ i, ∃ r : ℝ, a1 i = r) := by
  have h' := congrFun h ValueIdx.ix0
  dsimp only [fn] at h'
  obtain ⟨h0, h1⟩ := IntOp.andi_eq_one.1 h'
  constructor
  · intro i
    have e := Host.reduce_andi_all _ _ _ _ _ h0 i
    have e' : Ideal.cmp .olt (max (a0 i) (-(a0 i))) (Ideal.ofBits .f32 0x7F800000#32) = 1#1 := e
    rw [pos_inf] at e'
    exact real_of_abs_lt_top _ (lt_of_cmp_olt _ _ e')
  · intro i
    have e := Host.reduce_andi_all _ _ _ _ _ h1 i
    have e' : Ideal.cmp .olt (max (a1 i) (-(a1 i))) (Ideal.ofBits .f32 0x7F800000#32) = 1#1 := e
    rw [pos_inf] at e'
    exact real_of_abs_lt_top _ (lt_of_cmp_olt _ _ e')

end Cert.Pre_finite_inputs.Finite

end
-- ==== Proof.lean ====
/-
  Softmax pooling: a kernel in the running (one-pass) form against the plain two-pass reference.

  For scores p (16 batches × 19 rows × 16384 positions) and features f (16 × 512 channels × 16384 positions), both
  programs compute, at (batch b, channel c, row k),   ∑ₛ f(b,c,s) · softmax(p(b,k,·))(s).
  The reference takes the row's maximum, exponentiates, normalises and contracts.  The kernel walks the positions in
  two halves per batch, keeping a running maximum, normaliser and weighted sum which it rescales when the maximum
  moves, and divides at the end; the host then transposes.  On the extended reals the two agree whenever every
  input entry is a real number (`Cert.Pooling.onePass_eq_twoPass`, resting on the real identity
  `Cert.Pooling.pool_real`: a softmax average does not depend on the shift, and e^(M₀−M₁)·e^(p−M₀) = e^(p−M₁));
  the precondition gives exactly that (`Finite.real_of_pre`).

  The three frames are the generated runs.  The idealization rewrote nothing, so `preserves` is trivial.  For
  `algebraic` the kernel's run ends at `Pool.result` (the region's result array, block by block, then the
  transpose), the reference's at its generated term, read one operation at a time down to the two-pass form
  (`ReferenceIdeal.Pool.ref_apply`); `bridge` joins the two index by index.
-/
import proofs.«153419_j52905407152962_2_alg».proof.Defs
import proofs.«153419_j52905407152962_2_alg».proof.Proof.Gen.Kernel
import proofs.«153419_j52905407152962_2_alg».proof.Proof.Gen.Kernel.Skeleton
import proofs.«153419_j52905407152962_2_alg».proof.Proof.Gen.Kernel.Launch
import proofs.«153419_j52905407152962_2_alg».proof.Proof.Gen.Kernel.Points
import proofs.«153419_j52905407152962_2_alg».proof.Proof.Gen.Kernel.Frame
import proofs.«153419_j52905407152962_2_alg».proof.Proof.Gen.KernelIdeal
import proofs.«153419_j52905407152962_2_alg».proof.Proof.Gen.KernelIdeal.Skeleton
import proofs.«153419_j52905407152962_2_alg».proof.Proof.Gen.KernelIdeal.Launch
import proofs.«153419_j52905407152962_2_alg».proof.Proof.Gen.KernelIdeal.Points
import proofs.«153419_j52905407152962_2_alg».proof.Proof.Gen.KernelIdeal.Frame
import proofs.«153419_j52905407152962_2_alg».proof.Proof.Gen.ReferenceIdeal
import proofs.«153419_j52905407152962_2_alg».proof.Proof.Gen.Pre_finite_inputs
import proofs.«153419_j52905407152962_2_alg».proof.Proof.Gen.ReferenceIdeal.Run
import proofs.«153419_j52905407152962_2_alg».proof.Proof.Gen.ReferenceIdeal.Read
import proofs.«153419_j52905407152962_2_alg».proof.Proof.KernelRun
import proofs.«153419_j52905407152962_2_alg».proof.Proof.RefValue
import proofs.«153419_j52905407152962_2_alg».proof.Proof.Finite
import Idealize.ShloMosaic.Lib.ValueLayout
import Idealize.ShloMosaic.Adequacy
import Idealize.ShloMosaic.Init

noncomputable section

namespace Cert.Proof

open Idealize.ShloMosaic Idealize.SL.Sem Idealize.ShloMosaic.ValueIdx

/-- On arguments whose entries are all real numbers, the reference's result is the kernel's: at (b, c, k) the
    reference is the plain form over row (b, k) of the reshaped scores and channel (b, c) of the reshaped features,
    the kernel's transposed array holds the running form over the two halves of the same rows, and the two forms
    agree on real rows. -/
theorem bridge (a0 : Cert.KernelIdeal.S16x512x128x128.Idx → EReal) (a1 : Cert.KernelIdeal.S16x19x128x128.Idx → EReal)
    (h0 : ∀ i, ∃ r : ℝ, a0 i = r) (h1 : ∀ i, ∃ r : ℝ, a1 i = r) :
    Cert.ReferenceIdeal.Read.val_main_v15 (F := Ideal) a0 a1 = Cert.KernelIdeal.Pool.resultOf a0 a1 := by
  funext i
  obtain ⟨b, ch, k, rfl⟩ : ∃ (b : Fin 16) (ch : Fin 512) (k : Fin 19), i = ix3 b ch k := ⟨i 0, i 1, i 2, eq_ix3 i⟩
  rw [Cert.ReferenceIdeal.Pool.ref_apply]
  unfold Cert.KernelIdeal.Pool.resultOf
  rw [transpose_ix3_021_apply]
  show _ = Cert.KernelIdeal.Pool.poolAt _ _ b k ch
  unfold Cert.KernelIdeal.Pool.poolAt
  exact (Cert.Pooling.onePass_eq_twoPass (n := 8192) (by norm_num)
    (fun s : Fin (8192 + 8192) => Cert.ReferenceIdeal.Read.val_main_v0 (F := Ideal) a1 (ix3 b k s))
    (fun s : Fin (8192 + 8192) => Cert.ReferenceIdeal.Read.val_main_v14 (F := Ideal) a0 (ix3 b ch s))
    (fun s => h1 _) (fun s => h0 _)).symm

theorem frame_k : Cert.frame_Kernel := fun m ρ _ => Cert.Kernel.Gen.frame m ρ

theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, under the precondition, both programs end with the same result. -/
theorem algebraic : Cert.algebraic_KernelIdeal_ReferenceIdeal := by
  intro m ρ m' ρ' hpre hagree
  refine ⟨fun c => Cert.KernelIdeal.Pool.result m c, Cert.KernelIdeal.Pool.run m ρ, ?_⟩
  refine (θ_run Cert.ReferenceIdeal.defs _ _).mono (fun _ h c => ⟨?_, (h c).2⟩)
    (Cert.ReferenceIdeal.Value.run (F := Ideal) m' ρ')
  obtain ⟨hr0, hr1⟩ := Cert.Pre_finite_inputs.Finite.real_of_pre _ _ (hpre c)
  rw [(h c).1, Cert.ReferenceIdeal.Read.val_main_v15_eq, (hagree c).1, (hagree c).2]
  exact bridge _ _ hr0 hr1

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
